-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S300000x128 : Shape := ⟨2, ![300000, 128]⟩
abbrev S10000x128 : Shape := ⟨2, ![10000, 128]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S300000x128 : S_.BroadcastsInDim S300000x128 (![] : Fin 0 → Fin S300000x128.rank)
  reducesTo_S300000x128_S_d0_1 : S300000x128.ReducesTo [0, 1] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg22 : FVec F S128x128 .f32) (main_v63 : IVec S_ 1) (main_v67 : IVec S_ 1) : IVec S_ 1 :=
  let main_v68 : IVec S_ 1 := andi main_v63 main_v67
  let main_v69 : FVec F S128x128 .f32 := Host.absf main_arg22
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  main_v73

def fn_part3 {F : FTy → Type} [FloatOps F] (main_arg19 : FVec F S128x128 .f32) (main_arg20 : FVec F S128x128 .f32) (main_arg21 : FVec F S128 .f32) (main_arg22 : FVec F S128x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg19
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg20
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg21
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg22 main_v63 main_v67

def fn_part2 {F : FTy → Type} [FloatOps F] (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_v33 : IVec S_ 1) : IVec S_ 1 :=
  let main_v34 : FVec F S128 .f32 := Host.absf main_arg15
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg16
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg17
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg18
  let main_cst_18 : FVec F S_ .f32 := constant S_ .f32 0x7F800000#32
  let main_v50 : FVec F S128 .f32 := broadcastInDim S128 ![] bcast_S_S128 main_cst_18
  fn_part3 (F := F) main_arg19 main_arg20 main_arg21 main_arg22 main_v48 main_v49 main_v50

def fn_part1 {F : FTy → Type} [FloatOps F] (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg12
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg13
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg14
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg15 main_arg16 main_arg17 main_arg18 main_arg19 main_arg20 main_arg21 main_arg22 main_v33

def fn {F : FTy → Type} [FloatOps F] (main_arg0 : FVec F S500000x128 .f32) (main_arg1 : FVec F S300000x128 .f32) (main_arg2 : FVec F S10000x128 .f32) (main_arg3 : IVec S2000000 32) (main_arg4 : IVec S2000000 32) (main_arg5 : IVec S2000000 32) (main_arg6 : IVec S2000000 32) (main_arg7 : IVec S2000000 32) (main_arg8 : IVec S2000000 32) (main_arg9 : IVec S500000 32) (main_arg10 : IVec S500000 32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x128 .f32) (main_arg18 : FVec F S128 .f32) (main_arg19 : FVec F S128x128 .f32) (main_arg20 : FVec F S128x128 .f32) (main_arg21 : FVec F S128 .f32) (main_arg22 : FVec F S128x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S300000x128 .f32 := Host.absf main_arg1
  let main_cst_0 : FVec F S_ .f32 := constant S_ .f32 0x7F800000#32
  let main_v5 : FVec F S300000x128 .f32 := broadcastInDim S300000x128 ![] bcast_S_S300000x128 main_cst_0
  let main_v6 : IVec S300000x128 1 := cmpf .olt main_v4 main_v5
  let main_c_1 : IVec S_ 1 := constantI S_ 1 1#1
  let main_v7 : IVec S_ 1 := (fun x v => Host.reduce IntOp.andi x v reducesTo_S300000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S128x128 .f32 := Host.absf main_arg11
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg12 main_arg13 main_arg14 main_arg15 main_arg16 main_arg17 main_arg18 main_arg19 main_arg20 main_arg21 main_arg22 main_v13 main_v16
-- ==== Kernel.lean ====
abbrev S500000x128 : Shape := ⟨2, ![500000, 128]⟩
abbrev S300000x128 : Shape := ⟨2, ![300000, 128]⟩
abbrev S10000x128 : Shape := ⟨2, ![10000, 128]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S_ : Shape := ⟨0, ![]⟩
abbrev S2000000x1 : Shape := ⟨2, ![2000000, 1]⟩
abbrev S2000000x128 : Shape := ⟨2, ![2000000, 128]⟩
abbrev S500000x1 : Shape := ⟨2, ![500000, 1]⟩
abbrev S300000 : Shape := ⟨1, ![300000]⟩
abbrev S300000x1 : Shape := ⟨2, ![300000, 1]⟩
abbrev S10000 : Shape := ⟨1, ![10000]⟩
abbrev S10000x1 : Shape := ⟨2, ![10000, 1]⟩
abbrev S1x128 : Shape := ⟨2, ![1, 128]⟩
abbrev S5000x128 : Shape := ⟨2, ![5000, 128]⟩

abbrev nBuf : Space → Nat
  | .hbm => 130
  | .vmem => 29
  | .smem => 0
  | _ => 0

abbrev hbmTy0_0 (i : Nat) : BufTy := match i % 128 with
  | 0 => ⟨S500000x128, .f32⟩
  | 1 => ⟨S300000x128, .f32⟩
  | 2 => ⟨S10000x128, .f32⟩
  | 3 => ⟨S2000000, .i32⟩
  | 4 => ⟨S2000000, .i32⟩
  | 5 => ⟨S2000000, .i32⟩
  | 6 => ⟨S2000000, .i32⟩
  | 7 => ⟨S2000000, .i32⟩
  | 8 => ⟨S2000000, .i32⟩
  | 9 => ⟨S500000, .i32⟩
  | 10 => ⟨S500000, .i32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x128, .f32⟩
  | 32 => ⟨S_, .f32⟩
  | 33 => ⟨S500000x128, .f32⟩
  | 34 => ⟨S2000000x1, .i32⟩
  | 35 => ⟨S500000x128, .f32⟩
  | 36 => ⟨S_, .f32⟩
  | 37 => ⟨S2000000, .f32⟩
  | 38 => ⟨S_, .f32⟩
  | 39 => ⟨S500000, .f32⟩
  | 40 => ⟨S2000000x1, .i32⟩
  | 41 => ⟨S500000, .f32⟩
  | 42 => ⟨S_, .f32⟩
  | 43 => ⟨S500000, .f32⟩
  | 44 => ⟨S500000, .f32⟩
  | 45 => ⟨S500000x1, .f32⟩
  | 46 => ⟨S500000x128, .f32⟩
  | 47 => ⟨S500000x128, .f32⟩
  | 48 => ⟨S_, .i32⟩
  | 49 => ⟨S2000000, .i32⟩
  | 50 => ⟨S2000000, .i1⟩
  | 51 => ⟨S_, .i32⟩
  | 52 => ⟨S2000000, .i32⟩
  | 53 => ⟨S2000000, .i32⟩
  | 54 => ⟨S2000000, .i32⟩
  | 55 => ⟨S2000000x1, .i32⟩
  | 56 => ⟨S2000000x128, .f32⟩
  | 57 => ⟨S_, .f32⟩
  | 58 => ⟨S500000x128, .f32⟩
  | 59 => ⟨S2000000x1, .i32⟩
  | 60 => ⟨S500000x128, .f32⟩
  | 61 => ⟨S_, .f32⟩
  | 62 => ⟨S2000000, .f32⟩
  | 63 => ⟨S_, .f32⟩
  | 64 => ⟨S500000, .f32⟩
  | 65 => ⟨S2000000x1, .i32⟩
  | 66 => ⟨S500000, .f32⟩
  | 67 => ⟨S_, .f32⟩
  | 68 => ⟨S500000, .f32⟩
  | 69 => ⟨S500000, .f32⟩
  | 70 => ⟨S500000x1, .f32⟩
  | 71 => ⟨S500000x128, .f32⟩
  | 72 => ⟨S500000x128, .f32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S2000000x1, .i32⟩
  | 81 => ⟨S2000000x128, .f32⟩
  | 82 => ⟨S_, .f32⟩
  | 83 => ⟨S300000x128, .f32⟩
  | 84 => ⟨S2000000x1, .i32⟩
  | 85 => ⟨S300000x128, .f32⟩
  | 86 => ⟨S_, .f32⟩
  | 87 => ⟨S2000000, .f32⟩
  | 88 => ⟨S_, .f32⟩
  | 89 => ⟨S300000, .f32⟩
  | 90 => ⟨S2000000x1, .i32⟩
  | 91 => ⟨S300000, .f32⟩
  | 92 => ⟨S_, .f32⟩
  | 93 => ⟨S300000, .f32⟩
  | 94 => ⟨S300000, .f32⟩
  | 95 => ⟨S300000x1, .f32⟩
  | 96 => ⟨S300000x128, .f32⟩
  | 97 => ⟨S300000x128, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S500000x1, .i32⟩
  | 106 => ⟨S500000x128, .f32⟩
  | 107 => ⟨S_, .f32⟩
  | 108 => ⟨S10000x128, .f32⟩
  | 109 => ⟨S500000x1, .i32⟩
  | 110 => ⟨S10000x128, .f32⟩
  | 111 => ⟨S_, .f32⟩
  | 112 => ⟨S500000, .f32⟩
  | 113 => ⟨S_, .f32⟩
  | 114 => ⟨S10000, .f32⟩
  | 115 => ⟨S500000x1, .i32⟩
  | 116 => ⟨S10000, .f32⟩
  | 117 => ⟨S_, .f32⟩
  | 118 => ⟨S10000, .f32⟩
  | 119 => ⟨S10000, .f32⟩
  | 120 => ⟨S10000x1, .f32⟩
  | 121 => ⟨S10000x128, .f32⟩
  | 122 => ⟨S10000x128, .f32⟩
  | 123 => ⟨S1x128, .f32⟩
  | 124 => ⟨S1x128, .f32⟩
  | 125 => ⟨S500000x128, .f32⟩
  | 126 => ⟨S1x128, .f32⟩
  | 127 => ⟨S300000x128, .f32⟩
  | _ => ⟨S500000x128, .f32⟩

abbrev hbmTy0_1 (i : Nat) : BufTy := match i % 128 with
  | 0 => ⟨S1x128, .f32⟩
  | 1 => ⟨S10000x128, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S10000x128, .f32⟩
  | .local _ .vmem, ⟨24, _⟩ => ⟨S10000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_7 : Ref sig .tc := ⟨.hbm, 61, rfl⟩
abbrev main_v29 : Ref sig .tc := ⟨.hbm, 62, rfl⟩
abbrev main_cst_8 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_10 : Ref sig .tc := ⟨.hbm, 73, rfl⟩
abbrev main_v38 : Ref sig .tc := ⟨.hbm, 74, rfl⟩
abbrev main_v39 : Ref sig .tc := ⟨.hbm, 75, rfl⟩
abbrev main_c_11 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_12 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_13 : Ref sig .tc := ⟨.hbm, 86, rfl⟩
abbrev main_v48 : Ref sig .tc := ⟨.hbm, 87, rfl⟩
abbrev main_cst_14 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_15 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_c_16 : Ref sig .tc := ⟨.hbm, 98, rfl⟩
abbrev main_v57 : Ref sig .tc := ⟨.hbm, 99, rfl⟩
abbrev main_v58 : Ref sig .tc := ⟨.hbm, 100, rfl⟩
abbrev main_c_17 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_cst_18 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_19 : Ref sig .tc := ⟨.hbm, 111, rfl⟩
abbrev main_v67 : Ref sig .tc := ⟨.hbm, 112, rfl⟩
abbrev main_cst_20 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_21 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S10000x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x128 : S_.BroadcastsInDim S500000x128 (![] : Fin 0 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S300000x128 : S_.BroadcastsInDim S300000x128 (![] : Fin 0 → Fin S300000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  scatter_S500000_S2000000x1_S2000000_n_0_0_1_wf : ScatterDims.WF S500000 S2000000x1 S2000000 [] [0] [0] 1
  gather_S300000x128_S2000000x1_S2000000x128_1_0_n_n_0_1_1128_wf : GatherDims.WF S300000x128 S2000000x1 S2000000x128 [1] [0] [] [0] [] 1 ![1, 128]
  scatter_S300000x128_S2000000x1_S2000000x128_1_0_0_1_wf : ScatterDims.WF S300000x128 S2000000x1 S2000000x128 [1] [0] [0] 1
  scatter_S300000_S2000000x1_S2000000_n_0_0_1_wf : ScatterDims.WF S300000 S2000000x1 S2000000 [] [0] [0] 1
  gather_S300000x128_S500000x1_S500000x128_1_0_n_n_0_1_1128_wf : GatherDims.WF S300000x128 S500000x1 S500000x128 [1] [0] [] [0] [] 1 ![1, 128]
  scatter_S10000x128_S500000x1_S500000x128_1_0_0_1_wf : ScatterDims.WF S10000x128 S500000x1 S500000x128 [1] [0] [0] 1
  scatter_S10000_S500000x1_S500000_n_0_0_1_wf : ScatterDims.WF S10000 S500000x1 S500000 [] [0] [0] 1
  dot_S5000x128_S128x128_S5000x128_1_0_0_1_n_n_wf : DotDims.WF S5000x128 S128x128 S5000x128 [1] [0] [0] [1] [] []
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S300000x128.size a
  hwx1_0 : ∀ i : grid1.Coords, EltTy.bits .f32 = 32 ∨ (Rect.block (s := S300000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S300000x128.size a
  hwx1_1 : ∀ i : grid1.Coords, EltTy.bits .f32 = 32 ∨ (Rect.block (s := S300000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S300000x128.size a
  hwx1_5 : ∀ i : grid1.Coords, EltTy.bits .f32 = 32 ∨ (Rect.block (s := S300000x128) S5000x128.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S10000x128.size a
  hwx2_0 : ∀ i : grid2.Coords, EltTy.bits .f32 = 32 ∨ (Rect.block (s := S10000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S10000x128.size a
  hwx2_5 : ∀ i : grid2.Coords, EltTy.bits .f32 = 32 ∨ (Rect.block (s := S10000x128) S10000x128.size (cc2_transform_5 i) (hinb2_5 i)).WholeWords (EltTy.packing .f32)

variable [Facts₀]

def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S300000x128_S2000000x1_S2000000x128_1_0_n_n_0_1_1128 : GatherDims S300000x128 S2000000x1 S2000000x128 where
  offsetDims := [1]
  collapsedSliceDims := [0]
  operandBatchingDims := []
  startIndicesBatchingDims := []
  startIndexMap := [0]
  indexVectorDim := 1
  sliceSizes := ![1, 128]
  wf := gather_S300000x128_S2000000x1_S2000000x128_1_0_n_n_0_1_1128_wf
def scatter_S300000x128_S2000000x1_S2000000x128_1_0_0_1 : ScatterDims S300000x128 S2000000x1 S2000000x128 where
  updateWindowDims := [1]
  insertedWindowDims := [0]
  scatterDimsToOperandDims := [0]
  indexVectorDim := 1
  wf := scatter_S300000x128_S2000000x1_S2000000x128_1_0_0_1_wf
def scatter_S300000_S2000000x1_S2000000_n_0_0_1 : ScatterDims S300000 S2000000x1 S2000000 where
  updateWindowDims := []
  insertedWindowDims := [0]
  scatterDimsToOperandDims := [0]
  indexVectorDim := 1
  wf := scatter_S300000_S2000000x1_S2000000_n_0_0_1_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v76) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v77) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg16) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v78) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v79) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg19) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v80) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v75) S10000x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg20) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v82) S10000x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S500000x128 : Shape := ⟨2, ![500000, 128]⟩
abbrev S300000x128 : Shape := ⟨2, ![300000, 128]⟩
abbrev S10000x128 : Shape := ⟨2, ![10000, 128]⟩
abbrev S2000000 : Shape := ⟨1, ![2000000]⟩
abbrev S500000 : Shape := ⟨1, ![500000]⟩
abbrev S128x128 : Shape := ⟨2, ![128, 128]⟩
abbrev S128 : Shape := ⟨1, ![128]⟩
abbrev S_ : Shape := ⟨0, ![]⟩
abbrev S2000000x1 : Shape := ⟨2, ![2000000, 1]⟩
abbrev S2000000x128 : Shape := ⟨2, ![2000000, 128]⟩
abbrev S500000x1 : Shape := ⟨2, ![500000, 1]⟩
abbrev S1x128 : Shape := ⟨2, ![1, 128]⟩
abbrev S300000 : Shape := ⟨1, ![300000]⟩
abbrev S300000x1 : Shape := ⟨2, ![300000, 1]⟩
abbrev S10000 : Shape := ⟨1, ![10000]⟩
abbrev S10000x1 : Shape := ⟨2, ![10000, 1]⟩

abbrev nBuf : Space → Nat
  | .hbm => 157
  | .vmem => 0
  | .smem => 0
  | _ => 0

abbrev hbmTy0_0 (i : Nat) : BufTy := match i % 128 with
  | 0 => ⟨S500000x128, .f32⟩
  | 1 => ⟨S300000x128, .f32⟩
  | 2 => ⟨S10000x128, .f32⟩
  | 3 => ⟨S2000000, .i32⟩
  | 4 => ⟨S2000000, .i32⟩
  | 5 => ⟨S2000000, .i32⟩
  | 6 => ⟨S2000000, .i32⟩
  | 7 => ⟨S2000000, .i32⟩
  | 8 => ⟨S2000000, .i32⟩
  | 9 => ⟨S500000, .i32⟩
  | 10 => ⟨S500000, .i32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x128, .f32⟩
  | 18 => ⟨S128, .f32⟩
  | 19 => ⟨S128x128, .f32⟩
  | 20 => ⟨S128x128, .f32⟩
  | 21 => ⟨S128, .f32⟩
  | 22 => ⟨S128x128, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000x128, .f32⟩
  | 32 => ⟨S_, .f32⟩
  | 33 => ⟨S500000x128, .f32⟩
  | 34 => ⟨S2000000x1, .i32⟩
  | 35 => ⟨S500000x128, .f32⟩
  | 36 => ⟨S_, .f32⟩
  | 37 => ⟨S2000000, .f32⟩
  | 38 => ⟨S_, .f32⟩
  | 39 => ⟨S500000, .f32⟩
  | 40 => ⟨S2000000x1, .i32⟩
  | 41 => ⟨S500000, .f32⟩
  | 42 => ⟨S_, .f32⟩
  | 43 => ⟨S500000, .f32⟩
  | 44 => ⟨S500000, .f32⟩
  | 45 => ⟨S500000x1, .f32⟩
  | 46 => ⟨S500000x128, .f32⟩
  | 47 => ⟨S500000x128, .f32⟩
  | 48 => ⟨S500000x128, .f32⟩
  | 49 => ⟨S1x128, .f32⟩
  | 50 => ⟨S500000x128, .f32⟩
  | 51 => ⟨S500000x128, .f32⟩
  | 52 => ⟨S500000x128, .f32⟩
  | 53 => ⟨S500000x128, .f32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x128, .f32⟩
  | 63 => ⟨S_, .f32⟩
  | 64 => ⟨S500000x128, .f32⟩
  | 65 => ⟨S2000000x1, .i32⟩
  | 66 => ⟨S500000x128, .f32⟩
  | 67 => ⟨S_, .f32⟩
  | 68 => ⟨S2000000, .f32⟩
  | 69 => ⟨S_, .f32⟩
  | 70 => ⟨S500000, .f32⟩
  | 71 => ⟨S2000000x1, .i32⟩
  | 72 => ⟨S500000, .f32⟩
  | 73 => ⟨S_, .f32⟩
  | 74 => ⟨S500000, .f32⟩
  | 75 => ⟨S500000, .f32⟩
  | 76 => ⟨S500000x1, .f32⟩
  | 77 => ⟨S500000x128, .f32⟩
  | 78 => ⟨S500000x128, .f32⟩
  | 79 => ⟨S500000x128, .f32⟩
  | 80 => ⟨S1x128, .f32⟩
  | 81 => ⟨S500000x128, .f32⟩
  | 82 => ⟨S500000x128, .f32⟩
  | 83 => ⟨S500000x128, .f32⟩
  | 84 => ⟨S500000x128, .f32⟩
  | 85 => ⟨S500000x128, .f32⟩
  | 86 => ⟨S_, .f32⟩
  | 87 => ⟨S500000x128, .f32⟩
  | 88 => ⟨S500000x128, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x128, .f32⟩
  | 98 => ⟨S_, .f32⟩
  | 99 => ⟨S300000x128, .f32⟩
  | 100 => ⟨S2000000x1, .i32⟩
  | 101 => ⟨S300000x128, .f32⟩
  | 102 => ⟨S_, .f32⟩
  | 103 => ⟨S2000000, .f32⟩
  | 104 => ⟨S_, .f32⟩
  | 105 => ⟨S300000, .f32⟩
  | 106 => ⟨S2000000x1, .i32⟩
  | 107 => ⟨S300000, .f32⟩
  | 108 => ⟨S_, .f32⟩
  | 109 => ⟨S300000, .f32⟩
  | 110 => ⟨S300000, .f32⟩
  | 111 => ⟨S300000x1, .f32⟩
  | 112 => ⟨S300000x128, .f32⟩
  | 113 => ⟨S300000x128, .f32⟩
  | 114 => ⟨S300000x128, .f32⟩
  | 115 => ⟨S1x128, .f32⟩
  | 116 => ⟨S300000x128, .f32⟩
  | 117 => ⟨S300000x128, .f32⟩
  | 118 => ⟨S300000x128, .f32⟩
  | 119 => ⟨S300000x128, .f32⟩
  | 120 => ⟨S_, .f32⟩
  | 121 => ⟨S300000x128, .f32⟩
  | 122 => ⟨S300000x128, .f32⟩
  | 123 => ⟨S_, .i32⟩
  | 124 => ⟨S500000, .i32⟩
  | 125 => ⟨S500000, .i1⟩
  | 126 => ⟨S_, .i32⟩
  | 127 => ⟨S500000, .i32⟩
  | _ => ⟨S500000x128, .f32⟩

abbrev hbmTy0_1 (i : Nat) : BufTy := match i % 128 with
  | 0 => ⟨S500000, .i32⟩
  | 1 => ⟨S500000, .i32⟩
  | 2 => ⟨S500000x1, .i32⟩
  | 3 => ⟨S500000x128, .f32⟩
  | 4 => ⟨S_, .f32⟩
  | 5 => ⟨S10000x128, .f32⟩
  | 6 => ⟨S500000x1, .i32⟩
  | 7 => ⟨S10000x128, .f32⟩
  | 8 => ⟨S_, .f32⟩
  | 9 => ⟨S500000, .f32⟩
  | 10 => ⟨S_, .f32⟩
  | 11 => ⟨S10000, .f32⟩
  | 12 => ⟨S500000x1, .i32⟩
  | 13 => ⟨S10000, .f32⟩
  | 14 => ⟨S_, .f32⟩
  | 15 => ⟨S10000, .f32⟩
  | 16 => ⟨S10000, .f32⟩
  | 17 => ⟨S10000x1, .f32⟩
  | 18 => ⟨S10000x128, .f32⟩
  | 19 => ⟨S10000x128, .f32⟩
  | 20 => ⟨S10000x128, .f32⟩
  | 21 => ⟨S1x128, .f32⟩
  | 22 => ⟨S10000x128, .f32⟩
  | 23 => ⟨S10000x128, .f32⟩
  | 24 => ⟨S10000x128, .f32⟩
  | 25 => ⟨S10000x128, .f32⟩
  | 26 => ⟨S_, .f32⟩
  | 27 => ⟨S10000x128, .f32⟩
  | 28 => ⟨S10000x128, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_4 : Ref sig .tc := ⟨.hbm, 54, rfl⟩
abbrev main_v25 : Ref sig .tc := ⟨.hbm, 55, rfl⟩
abbrev main_v26 : Ref sig .tc := ⟨.hbm, 56, rfl⟩
abbrev main_c_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_cst_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_9 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call0_cst : Ref sig .tc := ⟨.hbm, 86, rfl⟩
abbrev main_call0_v0 : Ref sig .tc := ⟨.hbm, 87, rfl⟩
abbrev main_v51 : Ref sig .tc := ⟨.hbm, 88, rfl⟩
abbrev main_c_10 : Ref sig .tc := ⟨.hbm, 89, rfl⟩
abbrev main_v52 : Ref sig .tc := ⟨.hbm, 90, rfl⟩
abbrev main_v53 : Ref sig .tc := ⟨.hbm, 91, rfl⟩
abbrev main_c_11 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_12 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_13 : Ref sig .tc := ⟨.hbm, 102, rfl⟩
abbrev main_v62 : Ref sig .tc := ⟨.hbm, 103, rfl⟩
abbrev main_cst_14 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_15 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call1_cst : Ref sig .tc := ⟨.hbm, 120, rfl⟩
abbrev main_call1_v0 : Ref sig .tc := ⟨.hbm, 121, rfl⟩
abbrev main_v77 : Ref sig .tc := ⟨.hbm, 122, rfl⟩
abbrev main_c_16 : Ref sig .tc := ⟨.hbm, 123, rfl⟩
abbrev main_v78 : Ref sig .tc := ⟨.hbm, 124, rfl⟩
abbrev main_v79 : Ref sig .tc := ⟨.hbm, 125, rfl⟩
abbrev main_c_17 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_18 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_19 : Ref sig .tc := ⟨.hbm, 136, rfl⟩
abbrev main_v88 : Ref sig .tc := ⟨.hbm, 137, rfl⟩
abbrev main_cst_20 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_21 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_call2_cst : Ref sig .tc := ⟨.hbm, 154, rfl⟩
abbrev main_call2_v0 : Ref sig .tc := ⟨.hbm, 155, rfl⟩
abbrev main_v103 : Ref sig .tc := ⟨.hbm, 156, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S500000x128 : S_.BroadcastsInDim S500000x128 (![] : Fin 0 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S300000x128 : S_.BroadcastsInDim S300000x128 (![] : Fin 0 → Fin S300000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S1x128_S300000x128_0_1 : S1x128.BroadcastsInDim S300000x128 (![0, 1] : Fin 2 → Fin S300000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  scatter_S500000_S2000000x1_S2000000_n_0_0_1_wf : ScatterDims.WF S500000 S2000000x1 S2000000 [] [0] [0] 1
  dot_S500000x128_S128x128_S500000x128_1_0_0_1_n_n_wf : DotDims.WF S500000x128 S128x128 S500000x128 [1] [0] [0] [1] [] []
  gather_S300000x128_S2000000x1_S2000000x128_1_0_n_n_0_1_1128_wf : GatherDims.WF S300000x128 S2000000x1 S2000000x128 [1] [0] [] [0] [] 1 ![1, 128]
  scatter_S300000x128_S2000000x1_S2000000x128_1_0_0_1_wf : ScatterDims.WF S300000x128 S2000000x1 S2000000x128 [1] [0] [0] 1
  scatter_S300000_S2000000x1_S2000000_n_0_0_1_wf : ScatterDims.WF S300000 S2000000x1 S2000000 [] [0] [0] 1
  dot_S300000x128_S128x128_S300000x128_1_0_0_1_n_n_wf : DotDims.WF S300000x128 S128x128 S300000x128 [1] [0] [0] [1] [] []
  gather_S300000x128_S500000x1_S500000x128_1_0_n_n_0_1_1128_wf : GatherDims.WF S300000x128 S500000x1 S500000x128 [1] [0] [] [0] [] 1 ![1, 128]
  scatter_S10000x128_S500000x1_S500000x128_1_0_0_1_wf : ScatterDims.WF S10000x128 S500000x1 S500000x128 [1] [0] [0] 1
  scatter_S10000_S500000x1_S500000_n_0_0_1_wf : ScatterDims.WF S10000 S500000x1 S500000 [] [0] [0] 1
  dot_S10000x128_S128x128_S10000x128_1_0_0_1_n_n_wf : DotDims.WF S10000x128 S128x128 S10000x128 [1] [0] [0] [1] [] []

variable [Facts₀]

def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S300000x128_S2000000x1_S2000000x128_1_0_n_n_0_1_1128 : GatherDims S300000x128 S2000000x1 S2000000x128 where
  offsetDims := [1]
  collapsedSliceDims := [0]
  operandBatchingDims := []
  startIndicesBatchingDims := []
  startIndexMap := [0]
  indexVectorDim := 1
  sliceSizes := ![1, 128]
  wf := gather_S300000x128_S2000000x1_S2000000x128_1_0_n_n_0_1_1128_wf
def scatter_S300000x128_S2000000x1_S2000000x128_1_0_0_1 : ScatterDims S300000x128 S2000000x1 S2000000x128 where
  updateWindowDims := [1]
  insertedWindowDims := [0]
  scatterDimsToOperandDims := [0]
  indexVectorDim := 1
  wf := scatter_S300000x128_S2000000x1_S2000000x128_1_0_0_1_wf
def scatter_S300000_S2000000x1_S2000000_n_0_0_1 : ScatterDims S300000 S2000000x1 S2000000 where
  updateWindowDims := []
  insertedWindowDims := [0]
  scatterDimsToOperandDims := [0]
  indexVectorDim := 1
  wf := scatter_S300000_S2000000x1_S2000000_n_0_0_1_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def gather_S300000x128_S500000x1_S500000x128_1_0_n_n_0_1_1128 : GatherDims S300000x128 S500000x1 S500000x128 where
  offsetDims := [1]
  collapsedSliceDims := [0]
  operandBatchingDims := []
  startIndicesBatchingDims := []
  startIndexMap := [0]
  indexVectorDim := 1
  sliceSizes := ![1, 128]
  wf := gather_S300000x128_S500000x1_S500000x128_1_0_n_n_0_1_1128_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def scatter_S10000_S500000x1_S500000_n_0_0_1 : ScatterDims S10000 S500000x1 S500000 where
  updateWindowDims := []
  insertedWindowDims := [0]
  scatterDimsToOperandDims := [0]
  indexVectorDim := 1
  wf := scatter_S10000_S500000x1_S500000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelRun.lean ====
/-
  The idealized kernel's run with its three results named.

  @main is six segments: the host operations that build the four neighbourhood means and the bias rows, then the three
  dense epilogues, each a pipelined region, with one bias reshape between them. The run below is the launch of those
  segments; its post reads, on every core, each result buffer at the contents the last segment boundary gives it, and
  every argument at its launch contents.
-/
import proofs.«159447_j12275016532442_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each result buffer ends at the contents of the
    last segment boundary, and every argument as launched. -/
theorem run_results : θ_run defs (onTc (τ := τ) (main (F := F))) ⟨m, fun _ => 0, ρ⟩ (fun r => ∀ c : Dev nD,
      r.2.mem ((c.tc : Thread nD τ).loc main_v78) = W6 m ρ c (Proc.devRef .tc main_v78)
      ∧ r.2.mem ((c.tc : Thread nD τ).loc main_v80) = W6 m ρ c (Proc.devRef .tc main_v80)
      ∧ r.2.mem ((c.tc : Thread nD τ).loc main_v82) = W6 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v78 (by decide)),
       h c _ (mem_uc main_v80 (by decide)),
       h c _ (mem_uc main_v82 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

end Cert.KernelIdeal.Results

end
-- ==== Proof.KernelWalk.lean ====
/-
  The buffers each epilogue region finds, and where each result ends.

  The host operations before the first region build the four neighbourhood means and two of the bias rows; one bias
  reshape stands before each of the other two regions. A region rewrites only its own result array, and no host
  operation writes an argument, so every operand a region finds is either an argument as launched, a mean computed
  by the first stretch of host operations, or a bias vector reshaped to one row; and each result array keeps, to the
  end of the program, what its region left in it.
-/
import proofs.«159447_j12275016532442_1_alg».proof.Proof.Gen.KernelIdeal.Frame
import proofs.«159447_j12275016532442_1_alg».proof.Proof.Gen.ReferenceIdeal.Read
import Idealize.ShloMosaic.Lib.StableHlo.Run

set_option maxRecDepth 16384

noncomputable section

namespace Cert.KernelIdeal.Walk

open Idealize.ShloMosaic Idealize.ShloMosaic.TcCoe Idealize.ShloMosaic.Tactic Idealize.SL.Sem
open Idealize.ShloMosaic.StableHlo
open Cert.KernelIdeal Cert.KernelIdeal.Gen

variable (m : (ℓ : Loc nD τ sig) → Buf (Elt Ideal) ℓ) (ρ : Dev nD → PrngReg)

/-- A buffer that no operation of a stretch of host operations writes keeps its contents over the stretch. -/
local macro "untouched" : tactic => `(tactic| (
  refine StableHlo.after_of_forall_not_mem _ _ (List.forall_iff_forall_mem.mp ?_)
  simp only [hostOps0, hostOps1, hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## After the first stretch of host operations -/

theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by untouched).trans rfl
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by untouched).trans rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by untouched).trans rfl
theorem W1_arg11 (c : Dev nD) : W1 m ρ c (Proc.devRef .tc main_arg11) = m ((c : Thread nD τ).loc main_arg11) :=
  (show W1 m ρ c (Proc.devRef .tc main_arg11) = W0 m ρ c (Proc.devRef .tc main_arg11) by untouched).trans rfl
theorem W1_arg12 (c : Dev nD) : W1 m ρ c (Proc.devRef .tc main_arg12) = m ((c : Thread nD τ).loc main_arg12) :=
  (show W1 m ρ c (Proc.devRef .tc main_arg12) = W0 m ρ c (Proc.devRef .tc main_arg12) by untouched).trans rfl
theorem W1_arg13 (c : Dev nD) : W1 m ρ c (Proc.devRef .tc main_arg13) = m ((c : Thread nD τ).loc main_arg13) :=
  (show W1 m ρ c (Proc.devRef .tc main_arg13) = W0 m ρ c (Proc.devRef .tc main_arg13) by untouched).trans rfl
theorem W1_arg14 (c : Dev nD) : W1 m ρ c (Proc.devRef .tc main_arg14) = m ((c : Thread nD τ).loc main_arg14) :=
  (show W1 m ρ c (Proc.devRef .tc main_arg14) = W0 m ρ c (Proc.devRef .tc main_arg14) by untouched).trans rfl
theorem W1_arg15 (c : Dev nD) : W1 m ρ c (Proc.devRef .tc main_arg15) = m ((c : Thread nD τ).loc main_arg15) :=
  (show W1 m ρ c (Proc.devRef .tc main_arg15) = W0 m ρ c (Proc.devRef .tc main_arg15) by untouched).trans rfl
theorem W1_arg16 (c : Dev nD) : W1 m ρ c (Proc.devRef .tc main_arg16) = m ((c : Thread nD τ).loc main_arg16) :=
  (show W1 m ρ c (Proc.devRef .tc main_arg16) = W0 m ρ c (Proc.devRef .tc main_arg16) by untouched).trans rfl
theorem W1_arg17 (c : Dev nD) : W1 m ρ c (Proc.devRef .tc main_arg17) = m ((c : Thread nD τ).loc main_arg17) :=
  (show W1 m ρ c (Proc.devRef .tc main_arg17) = W0 m ρ c (Proc.devRef .tc main_arg17) by untouched).trans rfl
theorem W1_arg18 (c : Dev nD) : W1 m ρ c (Proc.devRef .tc main_arg18) = m ((c : Thread nD τ).loc main_arg18) :=
  (show W1 m ρ c (Proc.devRef .tc main_arg18) = W0 m ρ c (Proc.devRef .tc main_arg18) by untouched).trans rfl
theorem W1_arg19 (c : Dev nD) : W1 m ρ c (Proc.devRef .tc main_arg19) = m ((c : Thread nD τ).loc main_arg19) :=
  (show W1 m ρ c (Proc.devRef .tc main_arg19) = W0 m ρ c (Proc.devRef .tc main_arg19) by untouched).trans rfl
theorem W1_arg20 (c : Dev nD) : W1 m ρ c (Proc.devRef .tc main_arg20) = m ((c : Thread nD τ).loc main_arg20) :=
  (show W1 m ρ c (Proc.devRef .tc main_arg20) = W0 m ρ c (Proc.devRef .tc main_arg20) by untouched).trans rfl
theorem W1_arg21 (c : Dev nD) : W1 m ρ c (Proc.devRef .tc main_arg21) = m ((c : Thread nD τ).loc main_arg21) :=
  (show W1 m ρ c (Proc.devRef .tc main_arg21) = W0 m ρ c (Proc.devRef .tc main_arg21) by untouched).trans rfl
theorem W1_arg22 (c : Dev nD) : W1 m ρ c (Proc.devRef .tc main_arg22) = m ((c : Thread nD τ).loc main_arg22) :=
  (show W1 m ρ c (Proc.devRef .tc main_arg22) = W0 m ρ c (Proc.devRef .tc main_arg22) by untouched).trans rfl

/-! The four neighbourhood means are the reference's own stages: the same host operations, in the same order, of the
    same arguments. -/

set_option maxHeartbeats 4000000 in
theorem W1_main_v18 (c : Dev nD) : W1 m ρ c (Proc.devRef .tc main_v18)
    = Cert.ReferenceIdeal.Read.val_main_v18 (F := Ideal) (m ((c : Thread nD τ).loc main_arg0)) (m ((c : Thread nD τ).loc main_arg3)) (m ((c : Thread nD τ).loc main_arg4)) := by
  show StableHlo.after hostOps0 (W0 m ρ c) (Proc.devRef .tc main_v18) = _
  after_results_simp
  rfl

set_option maxHeartbeats 4000000 in
theorem W1_main_v37 (c : Dev nD) : W1 m ρ c (Proc.devRef .tc main_v37)
    = Cert.ReferenceIdeal.Read.val_main_v43 (F := Ideal) (m ((c : Thread nD τ).loc main_arg1)) (m ((c : Thread nD τ).loc main_arg5)) (m ((c : Thread nD τ).loc main_arg6)) := by
  show StableHlo.after hostOps0 (W0 m ρ c) (Proc.devRef .tc main_v37) = _
  after_results_simp
  rfl

set_option maxHeartbeats 4000000 in
theorem W1_main_v56 (c : Dev nD) : W1 m ρ c (Proc.devRef .tc main_v56)
    = Cert.ReferenceIdeal.Read.val_main_v70 (F := Ideal) (m ((c : Thread nD τ).loc main_arg0)) (m ((c : Thread nD τ).loc main_arg7)) (m ((c : Thread nD τ).loc main_arg8)) := by
  show StableHlo.after hostOps0 (W0 m ρ c) (Proc.devRef .tc main_v56) = _
  after_results_simp
  rfl

set_option maxHeartbeats 4000000 in
theorem W1_main_v75 (c : Dev nD) : W1 m ρ c (Proc.devRef .tc main_v75)
    = Cert.ReferenceIdeal.Read.val_main_v96 (F := Ideal) (m ((c : Thread nD τ).loc main_arg1)) (m ((c : Thread nD τ).loc main_arg9)) (m ((c : Thread nD τ).loc main_arg10)) := by
  show StableHlo.after hostOps0 (W0 m ρ c) (Proc.devRef .tc main_v75) = _
  after_results_simp
  rfl

set_option maxHeartbeats 4000000 in
theorem W1_main_v76 (c : Dev nD) : W1 m ρ c (Proc.devRef .tc main_v76)
    = shapeCast S1x128 (m ((c : Thread nD τ).loc main_arg12)) shapeCasts_S128_S1x128 := by
  show StableHlo.after hostOps0 (W0 m ρ c) (Proc.devRef .tc main_v76) = _
  after_results_simp
  rfl

set_option maxHeartbeats 4000000 in
theorem W1_main_v77 (c : Dev nD) : W1 m ρ c (Proc.devRef .tc main_v77)
    = shapeCast S1x128 (m ((c : Thread nD τ).loc main_arg15)) shapeCasts_S128_S1x128 := by
  show StableHlo.after hostOps0 (W0 m ρ c) (Proc.devRef .tc main_v77) = _
  after_results_simp
  rfl

/-! ## What the second region finds -/
theorem W3_v56 (c : Dev nD) : W3 m ρ c (Proc.devRef .tc main_v56) = Cert.ReferenceIdeal.Read.val_main_v70 (F := Ideal) (m ((c : Thread nD τ).loc main_arg0)) (m ((c : Thread nD τ).loc main_arg7)) (m ((c : Thread nD τ).loc main_arg8)) :=
  calc W3 m ρ c (Proc.devRef .tc main_v56)
    _ = W2 m ρ c (Proc.devRef .tc main_v56) := by untouched
    _ = W1 m ρ c (Proc.devRef .tc main_v56) := W2_of_ne m ρ c main_v56 (by decide)
    _ = _ := W1_main_v56 m ρ c
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by untouched
    _ = W1 m ρ c (Proc.devRef .tc main_arg1) := W2_of_ne m ρ c main_arg1 (by decide)
    _ = _ := W1_arg1 m ρ c
theorem W3_arg17 (c : Dev nD) : W3 m ρ c (Proc.devRef .tc main_arg17) = m ((c : Thread nD τ).loc main_arg17) :=
  calc W3 m ρ c (Proc.devRef .tc main_arg17)
    _ = W2 m ρ c (Proc.devRef .tc main_arg17) := by untouched
    _ = W1 m ρ c (Proc.devRef .tc main_arg17) := W2_of_ne m ρ c main_arg17 (by decide)
    _ = _ := W1_arg17 m ρ c
theorem W3_arg19 (c : Dev nD) : W3 m ρ c (Proc.devRef .tc main_arg19) = m ((c : Thread nD τ).loc main_arg19) :=
  calc W3 m ρ c (Proc.devRef .tc main_arg19)
    _ = W2 m ρ c (Proc.devRef .tc main_arg19) := by untouched
    _ = W1 m ρ c (Proc.devRef .tc main_arg19) := W2_of_ne m ρ c main_arg19 (by decide)
    _ = _ := W1_arg19 m ρ c
theorem W2_arg18 (c : Dev nD) : W2 m ρ c (Proc.devRef .tc main_arg18) = m ((c : Thread nD τ).loc main_arg18) :=
  (W2_of_ne m ρ c main_arg18 (by decide)).trans (W1_arg18 m ρ c)
theorem W3_v79 (c : Dev nD) : W3 m ρ c (Proc.devRef .tc main_v79)
    = shapeCast S1x128 (m ((c : Thread nD τ).loc main_arg18)) shapeCasts_S128_S1x128 := by
  show StableHlo.after hostOps1 (W2 m ρ c) (Proc.devRef .tc main_v79) = _
  after_results
  rw [W2_arg18]
  rfl

/-! ## What the third region finds -/
theorem W5_v75 (c : Dev nD) : W5 m ρ c (Proc.devRef .tc main_v75) = Cert.ReferenceIdeal.Read.val_main_v96 (F := Ideal) (m ((c : Thread nD τ).loc main_arg1)) (m ((c : Thread nD τ).loc main_arg9)) (m ((c : Thread nD τ).loc main_arg10)) :=
  calc W5 m ρ c (Proc.devRef .tc main_v75)
    _ = W4 m ρ c (Proc.devRef .tc main_v75) := by untouched
    _ = W3 m ρ c (Proc.devRef .tc main_v75) := W4_of_ne m ρ c main_v75 (by decide)
    _ = W2 m ρ c (Proc.devRef .tc main_v75) := by untouched
    _ = W1 m ρ c (Proc.devRef .tc main_v75) := W2_of_ne m ρ c main_v75 (by decide)
    _ = _ := W1_main_v75 m ρ c
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := by untouched
    _ = W3 m ρ c (Proc.devRef .tc main_arg2) := W4_of_ne m ρ c main_arg2 (by decide)
    _ = W2 m ρ c (Proc.devRef .tc main_arg2) := by untouched
    _ = W1 m ρ c (Proc.devRef .tc main_arg2) := W2_of_ne m ρ c main_arg2 (by decide)
    _ = _ := W1_arg2 m ρ c
theorem W5_arg20 (c : Dev nD) : W5 m ρ c (Proc.devRef .tc main_arg20) = m ((c : Thread nD τ).loc main_arg20) :=
  calc W5 m ρ c (Proc.devRef .tc main_arg20)
    _ = W4 m ρ c (Proc.devRef .tc main_arg20) := by untouched
    _ = W3 m ρ c (Proc.devRef .tc main_arg20) := W4_of_ne m ρ c main_arg20 (by decide)
    _ = W2 m ρ c (Proc.devRef .tc main_arg20) := by untouched
    _ = W1 m ρ c (Proc.devRef .tc main_arg20) := W2_of_ne m ρ c main_arg20 (by decide)
    _ = _ := W1_arg20 m ρ c
theorem W5_arg22 (c : Dev nD) : W5 m ρ c (Proc.devRef .tc main_arg22) = m ((c : Thread nD τ).loc main_arg22) :=
  calc W5 m ρ c (Proc.devRef .tc main_arg22)
    _ = W4 m ρ c (Proc.devRef .tc main_arg22) := by untouched
    _ = W3 m ρ c (Proc.devRef .tc main_arg22) := W4_of_ne m ρ c main_arg22 (by decide)
    _ = W2 m ρ c (Proc.devRef .tc main_arg22) := by untouched
    _ = W1 m ρ c (Proc.devRef .tc main_arg22) := W2_of_ne m ρ c main_arg22 (by decide)
    _ = _ := W1_arg22 m ρ c
theorem W4_arg21 (c : Dev nD) : W4 m ρ c (Proc.devRef .tc main_arg21) = m ((c : Thread nD τ).loc main_arg21) :=
  calc W4 m ρ c (Proc.devRef .tc main_arg21)
    _ = W3 m ρ c (Proc.devRef .tc main_arg21) := W4_of_ne m ρ c main_arg21 (by decide)
    _ = W2 m ρ c (Proc.devRef .tc main_arg21) := by untouched
    _ = W1 m ρ c (Proc.devRef .tc main_arg21) := W2_of_ne m ρ c main_arg21 (by decide)
    _ = _ := W1_arg21 m ρ c
theorem W5_v81 (c : Dev nD) : W5 m ρ c (Proc.devRef .tc main_v81)
    = shapeCast S1x128 (m ((c : Thread nD τ).loc main_arg21)) shapeCasts_S128_S1x128 := by
  show StableHlo.after hostOps2 (W4 m ρ c) (Proc.devRef .tc main_v81) = _
  after_results
  rw [W4_arg21]
  rfl

/-! ## Where each result ends -/

/-- The papers' result is what the first region left in it: nothing after that region writes it. -/
theorem W6_v78 (c : Dev nD) : W6 m ρ c (Proc.devRef .tc main_v78) = (dat0 (V1 m ρ) c).arrAt 9 cfg0.N :=
  calc W6 m ρ c (Proc.devRef .tc main_v78)
    _ = W5 m ρ c (Proc.devRef .tc main_v78) := W6_of_ne m ρ c main_v78 (by decide)
    _ = W4 m ρ c (Proc.devRef .tc main_v78) := by untouched
    _ = W3 m ρ c (Proc.devRef .tc main_v78) := W4_of_ne m ρ c main_v78 (by decide)
    _ = W2 m ρ c (Proc.devRef .tc main_v78) := by untouched
    _ = _ := W2_arr m ρ c 9

/-- The authors' result is what the second region left in it. -/
theorem W6_v80 (c : Dev nD) : W6 m ρ c (Proc.devRef .tc main_v80) = (dat1 (V3 m ρ) c).arrAt 5 cfg1.N :=
  calc W6 m ρ c (Proc.devRef .tc main_v80)
    _ = W5 m ρ c (Proc.devRef .tc main_v80) := W6_of_ne m ρ c main_v80 (by decide)
    _ = W4 m ρ c (Proc.devRef .tc main_v80) := by untouched
    _ = _ := W4_arr m ρ c 5

/-- The institutions' result is what the third region left in it. -/
theorem W6_v82 (c : Dev nD) : W6 m ρ c (Proc.devRef .tc main_v82) = (dat2 (V5 m ρ) c).arrAt 5 cfg2.N :=
  W6_arr m ρ c 5

end Cert.KernelIdeal.Walk

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.Sage.lean ====
/-
  The dense epilogue of a mean-aggregating graph layer, entry by entry.

  A node's new feature vector is, per incoming relation, the neighbourhood mean times one weight matrix, plus a bias,
  plus the node's own features times a second weight matrix; the relations into one node type are summed and the
  result clamped below at zero. Over the extended reals every such entry is a finite sum of products, and the two
  programs differ only in the order in which they add the same terms: addition of extended reals is commutative and
  associative, infinities included, so no finiteness is needed.
-/
import Idealize.ShloMosaic.Lib.ValueIdx
import Idealize.ShloMosaic.PureOps.Ideal
import Idealize.ShloMosaic.Lib.Pipeline.Value

noncomputable section

namespace Cert.Sage

open Idealize.ShloMosaic Idealize.ShloMosaic.ValueIdx

/-- Entry `q` of a row of 128 features times a `128 × 128` weight matrix. -/
def lin (a : Fin 128 → Ideal .f32) (W : FVec Ideal ⟨2, ![128, 128]⟩ .f32) (q : Fin 128) : Ideal .f32 :=
  ∑ k : Fin 128, a k * W (ix2 k q)

/-- One relation into a node type, for one node: both products are added first, then the bias `b`; clamped below
    at `z`. `mean` is the node's neighbourhood mean, `x` its own features. -/
def one (z : Ideal .f32) (mean x : Fin 128 → Ideal .f32) (Wl Wr : FVec Ideal ⟨2, ![128, 128]⟩ .f32)
    (b : Ideal .f32) (q : Fin 128) : Ideal .f32 :=
  max ((lin mean Wl q + lin x Wr q) + b) z

/-- Two relations into one node type, for one node: the four products are added first, then the two biases; clamped
    below at `z`. -/
def two (z : Ideal .f32) (m1 m2 x : Fin 128 → Ideal .f32) (Wl1 Wr1 Wl2 Wr2 : FVec Ideal ⟨2, ![128, 128]⟩ .f32)
    (b1 b2 : Ideal .f32) (q : Fin 128) : Ideal .f32 :=
  max (((((lin m1 Wl1 q + lin x Wr1 q) + lin m2 Wl2 q) + lin x Wr2 q) + b1) + b2) z

/-- Adding the bias before the node's own term gives the same entry. -/
theorem one_of_bias_first (z : Ideal .f32) (mean x : Fin 128 → Ideal .f32)
    (Wl Wr : FVec Ideal ⟨2, ![128, 128]⟩ .f32) (b : Ideal .f32) (q : Fin 128) :
    max ((lin mean Wl q + b) + lin x Wr q) z = one z mean x Wl Wr b q := by
  unfold one
  rw [add_right_comm]

/-- Summing two complete relations, each with its bias added before the node's own term, gives the same entry. -/
theorem two_of_relations (z : Ideal .f32) (m1 m2 x : Fin 128 → Ideal .f32)
    (Wl1 Wr1 Wl2 Wr2 : FVec Ideal ⟨2, ![128, 128]⟩ .f32) (b1 b2 : Ideal .f32) (q : Fin 128) :
    max (((lin m1 Wl1 q + b1) + lin x Wr1 q) + ((lin m2 Wl2 q + b2) + lin x Wr2 q)) z
      = two z m1 m2 x Wl1 Wr1 Wl2 Wr2 b1 b2 q := by
  unfold two
  refine congrArg (fun s => max s z) ?_
  generalize lin m1 Wl1 q = a1
  generalize lin x Wr1 q = a2
  generalize lin m2 Wl2 q = a3
  generalize lin x Wr2 q = a4
  show ((a1 + b1 + a2 + (a3 + b2 + a4) : EReal)) = a1 + a2 + a3 + a4 + b1 + b2
  abel

variable {R : Nat}

/-- The row of a rank-2 index, as a number below the row count. -/
def row (i : (⟨2, ![R, 128]⟩ : Shape).Idx) : Fin R := ⟨(i 0).val, idx2_lt0 i⟩
/-- The column of a rank-2 index, as a number below 128. -/
def col (i : (⟨2, ![R, 128]⟩ : Shape).Idx) : Fin 128 := ⟨(i 1).val, idx2_lt1 i⟩

theorem row_ix2 (r : Fin R) (q : Fin 128) : row (ix2 r q) = r := rfl
theorem col_ix2 (r : Fin R) (q : Fin 128) : col (ix2 r q) = q := rfl

/-- The layer for a node type with ONE incoming relation, as an array: the index's row of the mean and of the features,
    its column of the weights and of the bias vector. -/
def layer1 (z : Ideal .f32) (mean x : FVec Ideal ⟨2, ![R, 128]⟩ .f32) (Wl Wr : FVec Ideal ⟨2, ![128, 128]⟩ .f32)
    (b : FVec Ideal ⟨1, ![128]⟩ .f32) : FVec Ideal ⟨2, ![R, 128]⟩ .f32 :=
  fun i => one z (fun k => mean (ix2 (row i) k)) (fun k => x (ix2 (row i) k)) Wl Wr (b (ix1 (col i))) (col i)

/-- The layer for a node type with TWO incoming relations, as an array. -/
def layer2 (z : Ideal .f32) (m1 m2 x : FVec Ideal ⟨2, ![R, 128]⟩ .f32)
    (Wl1 Wr1 Wl2 Wr2 : FVec Ideal ⟨2, ![128, 128]⟩ .f32) (b1 b2 : FVec Ideal ⟨1, ![128]⟩ .f32) :
    FVec Ideal ⟨2, ![R, 128]⟩ .f32 :=
  fun i => two z (fun k => m1 (ix2 (row i) k)) (fun k => m2 (ix2 (row i) k)) (fun k => x (ix2 (row i) k)) Wl1 Wr1 Wl2 Wr2
    (b1 (ix1 (col i))) (b2 (ix1 (col i))) (col i)

/-- The same layer with the bias held as one row `[1, 128]`. -/
def layer1r (z : Ideal .f32) (mean x : FVec Ideal ⟨2, ![R, 128]⟩ .f32) (Wl Wr : FVec Ideal ⟨2, ![128, 128]⟩ .f32)
    (b : FVec Ideal ⟨2, ![1, 128]⟩ .f32) : FVec Ideal ⟨2, ![R, 128]⟩ .f32 :=
  fun i => one z (fun k => mean (ix2 (row i) k)) (fun k => x (ix2 (row i) k)) Wl Wr (b (ix2 (0 : Fin 1) (col i))) (col i)

/-- The same layer with each bias held as one row `[1, 128]`. -/
def layer2r (z : Ideal .f32) (m1 m2 x : FVec Ideal ⟨2, ![R, 128]⟩ .f32)
    (Wl1 Wr1 Wl2 Wr2 : FVec Ideal ⟨2, ![128, 128]⟩ .f32) (b1 b2 : FVec Ideal ⟨2, ![1, 128]⟩ .f32) :
    FVec Ideal ⟨2, ![R, 128]⟩ .f32 :=
  fun i => two z (fun k => m1 (ix2 (row i) k)) (fun k => m2 (ix2 (row i) k)) (fun k => x (ix2 (row i) k)) Wl1 Wr1 Wl2 Wr2
    (b1 (ix2 (0 : Fin 1) (col i))) (b2 (ix2 (0 : Fin 1) (col i))) (col i)

/-- A vector of 128 entries reshaped to one row reads, at `(0, q)`, the vector's entry `q`. -/
theorem row_of_vec {α : Type} (v : (⟨1, ![128]⟩ : Shape).Idx → α)
    (h : (⟨1, ![128]⟩ : Shape).ShapeCasts ⟨2, ![1, 128]⟩) (q : Fin 128) :
    shapeCast ⟨2, ![1, 128]⟩ v h (ix2 (0 : Fin 1) q) = v (ix1 q) := by
  rw [shapeCast_addUnit_apply ![128] v h (ix2 (0 : Fin 1) q)]
  refine congrArg v (funext fun a => ?_)
  match a with
  | ⟨0, _⟩ => rfl

/-- With the bias a reshaped vector, the row form is the vector form. -/
theorem layer1r_reshape (z : Ideal .f32) (mean x : FVec Ideal ⟨2, ![R, 128]⟩ .f32)
    (Wl Wr : FVec Ideal ⟨2, ![128, 128]⟩ .f32) (b : FVec Ideal ⟨1, ![128]⟩ .f32)
    (h : (⟨1, ![128]⟩ : Shape).ShapeCasts ⟨2, ![1, 128]⟩) :
    layer1r z mean x Wl Wr (shapeCast ⟨2, ![1, 128]⟩ b h) = layer1 z mean x Wl Wr b := by
  funext i
  unfold layer1r layer1
  rw [row_of_vec]

/-- With each bias a reshaped vector, the row form is the vector form. -/
theorem layer2r_reshape (z : Ideal .f32) (m1 m2 x : FVec Ideal ⟨2, ![R, 128]⟩ .f32)
    (Wl1 Wr1 Wl2 Wr2 : FVec Ideal ⟨2, ![128, 128]⟩ .f32) (b1 b2 : FVec Ideal ⟨1, ![128]⟩ .f32)
    (h : (⟨1, ![128]⟩ : Shape).ShapeCasts ⟨2, ![1, 128]⟩) :
    layer2r z m1 m2 x Wl1 Wr1 Wl2 Wr2 (shapeCast ⟨2, ![1, 128]⟩ b1 h) (shapeCast ⟨2, ![1, 128]⟩ b2 h)
      = layer2 z m1 m2 x Wl1 Wr1 Wl2 Wr2 b1 b2 := by
  funext i
  unfold layer2r layer2
  rw [row_of_vec, row_of_vec]

end Cert.Sage

end
-- ==== Proof.Body0.lean ====
/-
  What one grid point of the two-relation epilogue stores, entry by entry.

  The body loads its row blocks, the weight matrices and the bias rows, rounds the matrix operands to bf16 (no
  change over the extended reals), multiplies into zero accumulators, adds the products and then the bias rows laid
  along every row, and clamps below at zero. Entry `(p, q)` of the stored block is therefore the layer's entry for
  row `p` of the blocks and column `q`.
-/
import proofs.«159447_j12275016532442_1_alg».proof.Proof.Gen.KernelIdeal.Skeleton
import proofs.«159447_j12275016532442_1_alg».proof.Proof.LibDenseBlock
import proofs.«159447_j12275016532442_1_alg».proof.Proof.Sage
import Idealize.ShloMosaic.Lib.ValueLayout
import Idealize.ShloMosaic.Lib.Pipeline.Value

noncomputable section

namespace Cert.KernelIdeal.Body0

open Idealize.ShloMosaic Idealize.ShloMosaic.ValueIdx Cert.KernelIdeal Cert.KernelIdeal.Gen Cert.Sage

/-- A block of 5000 rows times a weight matrix into a zero accumulator: entry `(p, q)` is the plain sum of products
    of row `p` with column `q`. -/
theorem dense (a : Vec Ideal S5000x128 .f32) (W : Vec Ideal S128x128 .f32) (p : Fin 5000) (q : Fin 128) :
    matmul (F := Ideal) dot_S5000x128_S128x128_S5000x128_1_0_0_1_n_n none (truncf .bf16 a bitsLt_bf16_f32)
        (truncf .bf16 W bitsLt_bf16_f32) (constant S5000x128 .f32 0x00000000#32) (ix2 p q)
      = lin (fun k => a (ix2 p k)) W q :=
  DenseBlock.matmul_zero_apply (K := 5000) (N := 128) (Q := 128) dot_S5000x128_S128x128_S5000x128_1_0_0_1_n_n.wf a W p q

/-- A bias row laid along every row of the block reads, at `(p, q)`, the row's entry `q`. -/
theorem bias (b : Vec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- The stored block at `(p, q)`: the two-relation entry of row `p` of the three row blocks. -/
theorem pay_apply (v0 v3 v6 : Vec Ideal S5000x128 .f32) (v8 v10 v12 v14 : Vec Ideal S128x128 .f32)
    (v16 v18 : Vec Ideal S1x128 .f32) (p : Fin 5000) (q : Fin 128) :
    k0_pay1 (F := Ideal) v0 v3 v6 v8 v10 v12 v14 v16 v18 (ix2 p q)
      = two (Ideal.ofBits .f32 0x00000000#32) (fun k => v0 (ix2 p k)) (fun k => v3 (ix2 p k)) (fun k => v6 (ix2 p k))
          v8 v10 v12 v14 (v16 (ix2 (0 : Fin 1) q)) (v18 (ix2 (0 : Fin 1) q)) q := by
  unfold k0_pay1 two
  simp only [shapeCast_self ]
  show max (((((matmul (F := Ideal) dot_S5000x128_S128x128_S5000x128_1_0_0_1_n_n none (truncf .bf16 v0 bitsLt_bf16_f32) (truncf .bf16 v8 bitsLt_bf16_f32) (constant S5000x128 .f32 0x00000000#32) (ix2 p q)
        + matmul (F := Ideal) dot_S5000x128_S128x128_S5000x128_1_0_0_1_n_n none (truncf .bf16 v6 bitsLt_bf16_f32) (truncf .bf16 v10 bitsLt_bf16_f32) (constant S5000x128 .f32 0x00000000#32) (ix2 p q))
        + matmul (F := Ideal) dot_S5000x128_S128x128_S5000x128_1_0_0_1_n_n none (truncf .bf16 v3 bitsLt_bf16_f32) (truncf .bf16 v12 bitsLt_bf16_f32) (constant S5000x128 .f32 0x00000000#32) (ix2 p q))
        + matmul (F := Ideal) dot_S5000x128_S128x128_S5000x128_1_0_0_1_n_n none (truncf .bf16 v6 bitsLt_bf16_f32) (truncf .bf16 v14 bitsLt_bf16_f32) (constant S5000x128 .f32 0x00000000#32) (ix2 p q))
        + broadcastTo S5000x128 v16 broadcasts_S1x128_S5000x128 (ix2 p q))
        + broadcastTo S5000x128 v18 broadcasts_S1x128_S5000x128 (ix2 p q))
      (Ideal.ofBits .f32 0x00000000#32) = _
  rw [dense, dense, dense, dense, bias, bias]

end Cert.KernelIdeal.Body0

end
-- ==== Proof.Blocks0.lean ====
/-
  From the blocks to the whole array, for the two-relation epilogue over 500000 rows.

  Grid point `t` reads rows `5000·t … 5000·t + 4999` of each row operand, the whole of each weight matrix and bias row,
  and writes back the same rows of the result. So what point `t` writes back is block `t` of ONE array — the layer of
  the operands as the region finds them —, and since the 100 blocks tile the 500000 rows, the result array ends
  holding that layer.
-/
import proofs.«159447_j12275016532442_1_alg».proof.Proof.Gen.KernelIdeal.Frame
import proofs.«159447_j12275016532442_1_alg».proof.Proof.Body0

set_option maxRecDepth 16384

noncomputable section

namespace Cert.KernelIdeal.Blocks0

open Idealize.ShloMosaic Idealize.ShloMosaic.ValueIdx Idealize.ShloMosaic.TcCoe Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: a row operand's block moves with the result's block, a weight
    matrix and a bias row stay at block zero, and the result's block index stays below 100. -/
theorem idx_facts : ∀ t : Fin cfg0.N, win0_0.index t (0 : Fin 2) = win0_9.index t (0 : Fin 2)
    ∧ win0_0.index t (1 : Fin 2) = 0
    ∧ win0_1.index t (0 : Fin 2) = win0_9.index t (0 : Fin 2)
    ∧ win0_1.index t (1 : Fin 2) = 0
    ∧ win0_2.index t (0 : Fin 2) = win0_9.index t (0 : Fin 2)
    ∧ win0_2.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_8.index t (0 : Fin 2) = 0
    ∧ win0_8.index t (1 : Fin 2) = 0
    ∧ win0_4.index t (0 : Fin 2) = 0
    ∧ win0_4.index t (1 : Fin 2) = 0
    ∧ win0_7.index t (0 : Fin 2) = 0
    ∧ win0_7.index t (1 : Fin 2) = 0
    ∧ win0_9.index t (1 : Fin 2) = 0
    ∧ win0_9.index t (0 : Fin 2) ≤ 99 :=
  (by decide +kernel : ∀ t : Fin grid0.N, _)

/-- Every block of rows is some grid point's. -/
theorem idx_onto : ∀ q0 : Fin 100, ∃ t : Fin cfg0.N, win0_9.index t = ![q0.val, 0] :=
  (by decide +kernel : ∀ q0 : Fin 100, ∃ t : Fin grid0.N, win0_9.index t = ![q0.val, 0])

/-- The layer of the operands as the region finds them. -/
abbrev G (c : Dev nD) : S500000x128.Idx → Ideal .f32 :=
  layer2r (R := 500000) (Ideal.ofBits .f32 0x00000000#32) (V c main_v18) (V c main_v37) (V c main_arg0) (V c main_arg11) (V c main_arg13) (V c main_arg14) (V c main_arg16) (V c main_v76) (V c main_v77)

/-- What point `t` writes back is block `t` of the layer. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S5000x128) hz, View.ld_unit_zero (S := S128x128) hz, View.ld_unit_zero (S := S1x128) hz]
  obtain ⟨r0a, r0b, r1a, r1b, r2a, r2b, c3a, c3b, c5a, c5b, c6a, c6b, c8a, c8b, c4a, c4b, c7a, c7b, o1, ole⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  have hrow : win0_9.index t (0 : Fin 2) * 5000 + p.val < 500000 := by omega
  generalize hr : (⟨win0_9.index t (0 : Fin 2) * 5000 + p.val, hrow⟩ : Fin 500000) = r
  have hrv : r.val = win0_9.index t (0 : Fin 2) * 5000 + p.val := by rw [← hr]
  have h9 : ((cfg0.win 9).blk t).view.emb (ix2 p q) = ix2 r q := funext fun a => Fin.ext (by
    match a with
    | ⟨0, _⟩ => show win0_9.index t (0 : Fin 2) * 5000 + 1 * p.val = r.val; omega
    | ⟨1, _⟩ => show win0_9.index t (1 : Fin 2) * 128 + 1 * q.val = q.val; omega)
  have hr0 : (fun k : Fin 128 => iblk0 V c 0 t (ix2 p k)) = fun k => V c main_v18 (ix2 r k) := funext fun k => by
    show V c main_v18 (((cfg0.win 0).blk t).view.emb (ix2 p k)) = _
    refine congrArg (V c main_v18) (funext fun a => Fin.ext ?_)
    match a with
    | ⟨0, _⟩ => show win0_0.index t (0 : Fin 2) * 5000 + 1 * p.val = r.val; omega
    | ⟨1, _⟩ => show win0_0.index t (1 : Fin 2) * 128 + 1 * k.val = k.val; omega
  have hr1 : (fun k : Fin 128 => iblk0 V c 1 t (ix2 p k)) = fun k => V c main_v37 (ix2 r k) := funext fun k => by
    show V c main_v37 (((cfg0.win 1).blk t).view.emb (ix2 p k)) = _
    refine congrArg (V c main_v37) (funext fun a => Fin.ext ?_)
    match a with
    | ⟨0, _⟩ => show win0_1.index t (0 : Fin 2) * 5000 + 1 * p.val = r.val; omega
    | ⟨1, _⟩ => show win0_1.index t (1 : Fin 2) * 128 + 1 * k.val = k.val; omega
  have hr2 : (fun k : Fin 128 => iblk0 V c 2 t (ix2 p k)) = fun k => V c main_arg0 (ix2 r k) := funext fun k => by
    show V c main_arg0 (((cfg0.win 2).blk t).view.emb (ix2 p k)) = _
    refine congrArg (V c main_arg0) (funext fun a => Fin.ext ?_)
    match a with
    | ⟨0, _⟩ => show win0_2.index t (0 : Fin 2) * 5000 + 1 * p.val = r.val; omega
    | ⟨1, _⟩ => show win0_2.index t (1 : Fin 2) * 128 + 1 * k.val = k.val; omega
  have hw3 : iblk0 V c 3 t = V c main_arg11 := funext fun y => by
    show V c main_arg11 (((cfg0.win 3).blk t).view.emb y) = _
    refine congrArg (V c main_arg11) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw5 : iblk0 V c 5 t = V c main_arg13 := funext fun y => by
    show V c main_arg13 (((cfg0.win 5).blk t).view.emb y) = _
    refine congrArg (V c main_arg13) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  have hw6 : iblk0 V c 6 t = V c main_arg14 := funext fun y => by
    show V c main_arg14 (((cfg0.win 6).blk t).view.emb y) = _
    refine congrArg (V c main_arg14) (funext fun a => Fin.ext ?_)
    match a with
    | ⟨0, _⟩ => show win0_6.index t (0 : Fin 2) * 128 + 1 * (y 0).val = (y 0).val; omega
    | ⟨1, _⟩ => show win0_6.index t (1 : Fin 2) * 128 + 1 * (y 1).val = (y 1).val; omega
  have hw8 : iblk0 V c 8 t = V c main_arg16 := funext fun y => by
    show V c main_arg16 (((cfg0.win 8).blk t).view.emb y) = _
    refine congrArg (V c main_arg16) (funext fun a => Fin.ext ?_)
    match a with
    | ⟨0, _⟩ => show win0_8.index t (0 : Fin 2) * 128 + 1 * (y 0).val = (y 0).val; omega
    | ⟨1, _⟩ => show win0_8.index t (1 : Fin 2) * 128 + 1 * (y 1).val = (y 1).val; omega
  have hb4 : iblk0 V c 4 t = V c main_v76 := funext fun y => by
    show V c main_v76 (((cfg0.win 4).blk t).view.emb y) = _
    refine congrArg (V c main_v76) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  have hb7 : iblk0 V c 7 t = V c main_v77 := funext fun y => by
    show V c main_v77 (((cfg0.win 7).blk t).view.emb y) = _
    refine congrArg (V c main_v77) (funext fun a => Fin.ext ?_)
    match a with
    | ⟨0, _⟩ => show win0_7.index t (0 : Fin 2) * 1 + 1 * (y 0).val = (y 0).val; omega
    | ⟨1, _⟩ => show win0_7.index t (1 : Fin 2) * 128 + 1 * (y 1).val = (y 1).val; omega
  show k0_pay1 (F := Ideal) (iblk0 V c 0 t) (iblk0 V c 1 t) (iblk0 V c 2 t) (iblk0 V c 3 t) (iblk0 V c 5 t) (iblk0 V c 6 t) (iblk0 V c 8 t) (iblk0 V c 4 t) (iblk0 V c 7 t) (ix2 p q) = G V c (((cfg0.win 9).blk t).view.emb (ix2 p q))
  rw [h9]
  refine (Body0.pay_apply _ _ _ _ _ _ _ _ _ p q).trans ?_
  show two (Ideal.ofBits .f32 0x00000000#32) (fun k => iblk0 V c 0 t (ix2 p k)) (fun k => iblk0 V c 1 t (ix2 p k)) (fun k => iblk0 V c 2 t (ix2 p k)) (iblk0 V c 3 t) (iblk0 V c 5 t) (iblk0 V c 6 t) (iblk0 V c 8 t) (iblk0 V c 4 t (ix2 (0 : Fin 1) q)) (iblk0 V c 7 t (ix2 (0 : Fin 1) q)) q
      = two (Ideal.ofBits .f32 0x00000000#32) (fun k => V c main_v18 (ix2 r k)) (fun k => V c main_v37 (ix2 r k)) (fun k => V c main_arg0 (ix2 r k)) (V c main_arg11) (V c main_arg13) (V c main_arg14) (V c main_arg16) (V c main_v76 (ix2 (0 : Fin 1) q)) (V c main_v77 (ix2 (0 : Fin 1) q)) q
  rw [hr0, hr1, hr2, hw3, hw5, hw6, hw8, hb4, hb7]

/-- An index of the array is in point `t`'s block iff each coordinate is in the block's range on its axis. -/
theorem mem_blk (t : Fin cfg0.N) (i : S500000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v78).slice (win0_9.rect t)).set ↔ _
  rw [View.set_slice_whole, Rect.mem_set_unit]
  exact Iff.rfl

/-- The 100 blocks of 5000 rows tile the array: row `n` is in block `n / 5000`. -/
theorem cover (i : S500000x128.Idx) :
    ∃ t : Fin cfg0.N, (cfg0.win 9).flush t = true ∧ i ∈ ((cfg0.win 9).blk t).view.set := by
  have hi0 : (i 0).val < 500000 := (i 0).isLt
  have hi1 : (i 1).val < 128 := (i 1).isLt
  obtain ⟨t, ht⟩ := idx_onto ⟨(i 0).val / 5000, by omega⟩
  have q0 : win0_9.index t (0 : Fin 2) = (i 0).val / 5000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The result array after the region is the layer of the operands as the region finds them. -/
theorem final (c : Dev nD) : (dat0 V c).arrAt 9 cfg0.N = G V c :=
  (dat0 V c).arrAt_eq_of_cover 9 (G V c) (fun t _ => flushed_eq V c t) cover

end Cert.KernelIdeal.Blocks0

end
-- ==== Proof.Body1.lean ====
/-
  What one grid point of the one-relation epilogue stores, entry by entry.

  The body loads its row blocks, the weight matrices and the bias row, rounds the matrix operands to bf16 (no
  change over the extended reals), multiplies into zero accumulators, adds the products and then the bias row laid
  along every row, and clamps below at zero. Entry `(p, q)` of the stored block is therefore the layer's entry for
  row `p` of the blocks and column `q`.
-/
import proofs.«159447_j12275016532442_1_alg».proof.Proof.Gen.KernelIdeal.Skeleton
import proofs.«159447_j12275016532442_1_alg».proof.Proof.LibDenseBlock
import proofs.«159447_j12275016532442_1_alg».proof.Proof.Sage
import Idealize.ShloMosaic.Lib.ValueLayout
import Idealize.ShloMosaic.Lib.Pipeline.Value

noncomputable section

namespace Cert.KernelIdeal.Body1

open Idealize.ShloMosaic Idealize.ShloMosaic.ValueIdx Cert.KernelIdeal Cert.KernelIdeal.Gen Cert.Sage

/-- A block of 5000 rows times a weight matrix into a zero accumulator: entry `(p, q)` is the plain sum of products
    of row `p` with column `q`. -/
theorem dense (a : Vec Ideal S5000x128 .f32) (W : Vec Ideal S128x128 .f32) (p : Fin 5000) (q : Fin 128) :
    matmul (F := Ideal) dot_S5000x128_S128x128_S5000x128_1_0_0_1_n_n none (truncf .bf16 a bitsLt_bf16_f32)
        (truncf .bf16 W bitsLt_bf16_f32) (constant S5000x128 .f32 0x00000000#32) (ix2 p q)
      = lin (fun k => a (ix2 p k)) W q :=
  DenseBlock.matmul_zero_apply (K := 5000) (N := 128) (Q := 128) dot_S5000x128_S128x128_S5000x128_1_0_0_1_n_n.wf a W p q

/-- A bias row laid along every row of the block reads, at `(p, q)`, the row's entry `q`. -/
theorem bias (b : Vec Ideal S1x128 .f32) (p : Fin 5000) (q : Fin 128) :
    broadcastTo S5000x128 b broadcasts_S1x128_S5000x128 (ix2 p q) = b (ix2 (0 : Fin 1) q) :=
  broadcastTo_1b_ab_apply b broadcasts_S1x128_S5000x128 p q

/-- The stored block at `(p, q)`: the one-relation entry of row `p` of the two row blocks. -/
theorem pay_apply (v0 v3 : Vec Ideal S5000x128 .f32) (v5 v7 : Vec Ideal S128x128 .f32)
    (v9 : Vec Ideal S1x128 .f32) (p : Fin 5000) (q : Fin 128) :
    k1_pay1 (F := Ideal) v0 v3 v5 v7 v9 (ix2 p q)
      = one (Ideal.ofBits .f32 0x00000000#32) (fun k => v0 (ix2 p k)) (fun k => v3 (ix2 p k))
          v5 v7 (v9 (ix2 (0 : Fin 1) q)) q := by
  unfold k1_pay1 one
  simp only [shapeCast_self ]
  show max ((matmul (F := Ideal) dot_S5000x128_S128x128_S5000x128_1_0_0_1_n_n none (truncf .bf16 v0 bitsLt_bf16_f32) (truncf .bf16 v5 bitsLt_bf16_f32) (constant S5000x128 .f32 0x00000000#32) (ix2 p q)
        + matmul (F := Ideal) dot_S5000x128_S128x128_S5000x128_1_0_0_1_n_n none (truncf .bf16 v3 bitsLt_bf16_f32) (truncf .bf16 v7 bitsLt_bf16_f32) (constant S5000x128 .f32 0x00000000#32) (ix2 p q))
        + broadcastTo S5000x128 v9 broadcasts_S1x128_S5000x128 (ix2 p q))
      (Ideal.ofBits .f32 0x00000000#32) = _
  rw [dense, dense, bias]

end Cert.KernelIdeal.Body1

end
-- ==== Proof.Blocks1.lean ====
/-
  From the blocks to the whole array, for the one-relation epilogue over 300000 rows.

  Grid point `t` reads rows `5000·t … 5000·t + 4999` of each row operand, the whole of each weight matrix and bias row,
  and writes back the same rows of the result. So what point `t` writes back is block `t` of ONE array — the layer of
  the operands as the region finds them —, and since the 60 blocks tile the 300000 rows, the result array ends
  holding that layer.
-/
import proofs.«159447_j12275016532442_1_alg».proof.Proof.Gen.KernelIdeal.Frame
import proofs.«159447_j12275016532442_1_alg».proof.Proof.Body1

set_option maxRecDepth 16384

noncomputable section

namespace Cert.KernelIdeal.Blocks1

open Idealize.ShloMosaic Idealize.ShloMosaic.ValueIdx Idealize.ShloMosaic.TcCoe Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: a row operand's block moves with the result's block, a weight
    matrix and a bias row stay at block zero, and the result's block index stays below 60. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_4.index t (0 : Fin 2) = 0
    ∧ win1_4.index t (1 : Fin 2) = 0
    ∧ win1_3.index t (0 : Fin 2) = 0
    ∧ win1_3.index t (1 : Fin 2) = 0
    ∧ win1_5.index t (1 : Fin 2) = 0
    ∧ win1_5.index t (0 : Fin 2) ≤ 59 :=
  (by decide +kernel : ∀ t : Fin grid1.N, _)

/-- Every block of rows is some grid point's. -/
theorem idx_onto : ∀ q0 : Fin 60, ∃ t : Fin cfg1.N, win1_5.index t = ![q0.val, 0] :=
  (by decide +kernel : ∀ q0 : Fin 60, ∃ t : Fin grid1.N, win1_5.index t = ![q0.val, 0])

/-- The layer of the operands as the region finds them. -/
abbrev G (c : Dev nD) : S300000x128.Idx → Ideal .f32 :=
  layer1r (R := 300000) (Ideal.ofBits .f32 0x00000000#32) (V c main_v56) (V c main_arg1) (V c main_arg17) (V c main_arg19) (V c main_v79)

/-- What point `t` writes back is block `t` of the layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨r0a, r0b, r1a, r1b, c2a, c2b, c4a, c4b, c3a, c3b, o1, ole⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  have hrow : win1_5.index t (0 : Fin 2) * 5000 + p.val < 300000 := by omega
  generalize hr : (⟨win1_5.index t (0 : Fin 2) * 5000 + p.val, hrow⟩ : Fin 300000) = r
  have hrv : r.val = win1_5.index t (0 : Fin 2) * 5000 + p.val := by rw [← hr]
  have h9 : ((cfg1.win 5).blk t).view.emb (ix2 p q) = ix2 r q := funext fun a => Fin.ext (by
    match a with
    | ⟨0, _⟩ => show win1_5.index t (0 : Fin 2) * 5000 + 1 * p.val = r.val; omega
    | ⟨1, _⟩ => show win1_5.index t (1 : Fin 2) * 128 + 1 * q.val = q.val; omega)
  have hr0 : (fun k : Fin 128 => iblk1 V c 0 t (ix2 p k)) = fun k => V c main_v56 (ix2 r k) := funext fun k => by
    show V c main_v56 (((cfg1.win 0).blk t).view.emb (ix2 p k)) = _
    refine congrArg (V c main_v56) (funext fun a => Fin.ext ?_)
    match a with
    | ⟨0, _⟩ => show win1_0.index t (0 : Fin 2) * 5000 + 1 * p.val = r.val; omega
    | ⟨1, _⟩ => show win1_0.index t (1 : Fin 2) * 128 + 1 * k.val = k.val; omega
  have hr1 : (fun k : Fin 128 => iblk1 V c 1 t (ix2 p k)) = fun k => V c main_arg1 (ix2 r k) := funext fun k => by
    show V c main_arg1 (((cfg1.win 1).blk t).view.emb (ix2 p k)) = _
    refine congrArg (V c main_arg1) (funext fun a => Fin.ext ?_)
    match a with
    | ⟨0, _⟩ => show win1_1.index t (0 : Fin 2) * 5000 + 1 * p.val = r.val; omega
    | ⟨1, _⟩ => show win1_1.index t (1 : Fin 2) * 128 + 1 * k.val = k.val; omega
  have hw2 : iblk1 V c 2 t = V c main_arg17 := funext fun y => by
    show V c main_arg17 (((cfg1.win 2).blk t).view.emb y) = _
    refine congrArg (V c main_arg17) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hw4 : iblk1 V c 4 t = V c main_arg19 := funext fun y => by
    show V c main_arg19 (((cfg1.win 4).blk t).view.emb y) = _
    refine congrArg (V c main_arg19) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hb3 : iblk1 V c 3 t = V c main_v79 := funext fun y => by
    show V c main_v79 (((cfg1.win 3).blk t).view.emb y) = _
    refine congrArg (V c main_v79) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  show k1_pay1 (F := Ideal) (iblk1 V c 0 t) (iblk1 V c 1 t) (iblk1 V c 2 t) (iblk1 V c 4 t) (iblk1 V c 3 t) (ix2 p q) = G V c (((cfg1.win 5).blk t).view.emb (ix2 p q))
  rw [h9]
  refine (Body1.pay_apply _ _ _ _ _ p q).trans ?_
  show one (Ideal.ofBits .f32 0x00000000#32) (fun k => iblk1 V c 0 t (ix2 p k)) (fun k => iblk1 V c 1 t (ix2 p k)) (iblk1 V c 2 t) (iblk1 V c 4 t) (iblk1 V c 3 t (ix2 (0 : Fin 1) q)) q
      = one (Ideal.ofBits .f32 0x00000000#32) (fun k => V c main_v56 (ix2 r k)) (fun k => V c main_arg1 (ix2 r k)) (V c main_arg17) (V c main_arg19) (V c main_v79 (ix2 (0 : Fin 1) q)) q
  rw [hr0, hr1, hw2, hw4, hb3]

/-- An index of the array is in point `t`'s block iff each coordinate is in the block's range on its axis. -/
theorem mem_blk (t : Fin cfg1.N) (i : S300000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v80).slice (win1_5.rect t)).set ↔ _
  rw [View.set_slice_whole, Rect.mem_set_unit]
  exact Iff.rfl

/-- The 60 blocks of 5000 rows tile the array: row `n` is in block `n / 5000`. -/
theorem cover (i : S300000x128.Idx) :
    ∃ t : Fin cfg1.N, (cfg1.win 5).flush t = true ∧ i ∈ ((cfg1.win 5).blk t).view.set := by
  have hi0 : (i 0).val < 300000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The result array after the region is the layer of the operands as the region finds them. -/
theorem final (c : Dev nD) : (dat1 V c).arrAt 5 cfg1.N = G V c :=
  (dat1 V c).arrAt_eq_of_cover 5 (G V c) (fun t _ => flushed_eq V c t) cover

end Cert.KernelIdeal.Blocks1

end
-- ==== Proof.Body2.lean ====
/-
  What one grid point of the one-relation epilogue stores, entry by entry.

  The body loads its row blocks, the weight matrices and the bias row, rounds the matrix operands to bf16 (no
  change over the extended reals), multiplies into zero accumulators, adds the products and then the bias row laid
  along every row, and clamps below at zero. Entry `(p, q)` of the stored block is therefore the layer's entry for
  row `p` of the blocks and column `q`.
-/
import proofs.«159447_j12275016532442_1_alg».proof.Proof.Gen.KernelIdeal.Skeleton
import proofs.«159447_j12275016532442_1_alg».proof.Proof.LibDenseBlock
import proofs.«159447_j12275016532442_1_alg».proof.Proof.Sage
import Idealize.ShloMosaic.Lib.ValueLayout
import Idealize.ShloMosaic.Lib.Pipeline.Value

noncomputable section

namespace Cert.KernelIdeal.Body2

open Idealize.ShloMosaic Idealize.ShloMosaic.ValueIdx Cert.KernelIdeal Cert.KernelIdeal.Gen Cert.Sage

/-- A block of 10000 rows times a weight matrix into a zero accumulator: entry `(p, q)` is the plain sum of products
    of row `p` with column `q`. -/
theorem dense (a : Vec Ideal S10000x128 .f32) (W : Vec Ideal S128x128 .f32) (p : Fin 10000) (q : Fin 128) :
    matmul (F := Ideal) dot_S10000x128_S128x128_S10000x128_1_0_0_1_n_n none (truncf .bf16 a bitsLt_bf16_f32)
        (truncf .bf16 W bitsLt_bf16_f32) (constant S10000x128 .f32 0x00000000#32) (ix2 p q)
      = lin (fun k => a (ix2 p k)) W q :=
  DenseBlock.matmul_zero_apply (K := 10000) (N := 128) (Q := 128) dot_S10000x128_S128x128_S10000x128_1_0_0_1_n_n.wf a W p q

/-- A bias row laid along every row of the block reads, at `(p, q)`, the row's entry `q`. -/
theorem bias (b : Vec Ideal S1x128 .f32) (p : Fin 10000) (q : Fin 128) :
    broadcastTo S10000x128 b broadcasts_S1x128_S10000x128 (ix2 p q) = b (ix2 (0 : Fin 1) q) :=
  broadcastTo_1b_ab_apply b broadcasts_S1x128_S10000x128 p q

/-- The stored block at `(p, q)`: the one-relation entry of row `p` of the two row blocks. -/
theorem pay_apply (v0 v3 : Vec Ideal S10000x128 .f32) (v5 v7 : Vec Ideal S128x128 .f32)
    (v9 : Vec Ideal S1x128 .f32) (p : Fin 10000) (q : Fin 128) :
    k2_pay1 (F := Ideal) v0 v3 v5 v7 v9 (ix2 p q)
      = one (Ideal.ofBits .f32 0x00000000#32) (fun k => v0 (ix2 p k)) (fun k => v3 (ix2 p k))
          v5 v7 (v9 (ix2 (0 : Fin 1) q)) q := by
  unfold k2_pay1 one
  simp only [shapeCast_self ]
  show max ((matmul (F := Ideal) dot_S10000x128_S128x128_S10000x128_1_0_0_1_n_n none (truncf .bf16 v0 bitsLt_bf16_f32) (truncf .bf16 v5 bitsLt_bf16_f32) (constant S10000x128 .f32 0x00000000#32) (ix2 p q)
        + matmul (F := Ideal) dot_S10000x128_S128x128_S10000x128_1_0_0_1_n_n none (truncf .bf16 v3 bitsLt_bf16_f32) (truncf .bf16 v7 bitsLt_bf16_f32) (constant S10000x128 .f32 0x00000000#32) (ix2 p q))
        + broadcastTo S10000x128 v9 broadcasts_S1x128_S10000x128 (ix2 p q))
      (Ideal.ofBits .f32 0x00000000#32) = _
  rw [dense, dense, bias]

end Cert.KernelIdeal.Body2

end
-- ==== Proof.Blocks2.lean ====
/-
  From the blocks to the whole array, for the one-relation epilogue over 10000 rows.

  Grid point `t` reads rows `10000·t … 10000·t + 9999` of each row operand, the whole of each weight matrix and bias row,
  and writes back the same rows of the result. So what point `t` writes back is block `t` of ONE array — the layer of
  the operands as the region finds them —, and since the 1 blocks tile the 10000 rows, the result array ends
  holding that layer.
-/
import proofs.«159447_j12275016532442_1_alg».proof.Proof.Gen.KernelIdeal.Frame
import proofs.«159447_j12275016532442_1_alg».proof.Proof.Body2

set_option maxRecDepth 16384

noncomputable section

namespace Cert.KernelIdeal.Blocks2

open Idealize.ShloMosaic Idealize.ShloMosaic.ValueIdx Idealize.ShloMosaic.TcCoe Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided once over the grid: a row operand's block moves with the result's block, a weight
    matrix and a bias row stay at block zero, and the result's block index stays below 1. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0
    ∧ win2_2.index t (1 : Fin 2) = 0
    ∧ win2_4.index t (0 : Fin 2) = 0
    ∧ win2_4.index t (1 : Fin 2) = 0
    ∧ win2_3.index t (0 : Fin 2) = 0
    ∧ win2_3.index t (1 : Fin 2) = 0
    ∧ win2_5.index t (1 : Fin 2) = 0
    ∧ win2_5.index t (0 : Fin 2) ≤ 0 :=
  (by decide +kernel : ∀ t : Fin grid2.N, _)

/-- Every block of rows is some grid point's. -/
theorem idx_onto : ∀ q0 : Fin 1, ∃ t : Fin cfg2.N, win2_5.index t = ![q0.val, 0] :=
  (by decide +kernel : ∀ q0 : Fin 1, ∃ t : Fin grid2.N, win2_5.index t = ![q0.val, 0])

/-- The layer of the operands as the region finds them. -/
abbrev G (c : Dev nD) : S10000x128.Idx → Ideal .f32 :=
  layer1r (R := 10000) (Ideal.ofBits .f32 0x00000000#32) (V c main_v75) (V c main_arg2) (V c main_arg20) (V c main_arg22) (V c main_v81)

/-- What point `t` writes back is block `t` of the layer. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x128) hz, View.ld_unit_zero (S := S128x128) hz, View.ld_unit_zero (S := S1x128) hz]
  obtain ⟨r0a, r0b, r1a, r1b, c2a, c2b, c4a, c4b, c3a, c3b, o1, ole⟩ := idx_facts t
  funext j
  obtain ⟨p, q, rfl⟩ : ∃ (p : Fin 10000) (q : Fin 128), j = ix2 p q := ⟨j 0, j 1, eq_ix2 j⟩
  have hp : p.val < 10000 := p.isLt
  have hq : q.val < 128 := q.isLt
  have hrow : win2_5.index t (0 : Fin 2) * 10000 + p.val < 10000 := by omega
  generalize hr : (⟨win2_5.index t (0 : Fin 2) * 10000 + p.val, hrow⟩ : Fin 10000) = r
  have hrv : r.val = win2_5.index t (0 : Fin 2) * 10000 + p.val := by rw [← hr]
  have h9 : ((cfg2.win 5).blk t).view.emb (ix2 p q) = ix2 r q := funext fun a => Fin.ext (by
    match a with
    | ⟨0, _⟩ => show win2_5.index t (0 : Fin 2) * 10000 + 1 * p.val = r.val; omega
    | ⟨1, _⟩ => show win2_5.index t (1 : Fin 2) * 128 + 1 * q.val = q.val; omega)
  have hr0 : (fun k : Fin 128 => iblk2 V c 0 t (ix2 p k)) = fun k => V c main_v75 (ix2 r k) := funext fun k => by
    show V c main_v75 (((cfg2.win 0).blk t).view.emb (ix2 p k)) = _
    refine congrArg (V c main_v75) (funext fun a => Fin.ext ?_)
    match a with
    | ⟨0, _⟩ => show win2_0.index t (0 : Fin 2) * 10000 + 1 * p.val = r.val; omega
    | ⟨1, _⟩ => show win2_0.index t (1 : Fin 2) * 128 + 1 * k.val = k.val; omega
  have hr1 : (fun k : Fin 128 => iblk2 V c 1 t (ix2 p k)) = fun k => V c main_arg2 (ix2 r k) := funext fun k => by
    show V c main_arg2 (((cfg2.win 1).blk t).view.emb (ix2 p k)) = _
    refine congrArg (V c main_arg2) (funext fun a => Fin.ext ?_)
    match a with
    | ⟨0, _⟩ => show win2_1.index t (0 : Fin 2) * 10000 + 1 * p.val = r.val; omega
    | ⟨1, _⟩ => show win2_1.index t (1 : Fin 2) * 128 + 1 * k.val = k.val; omega
  have hw2 : iblk2 V c 2 t = V c main_arg20 := funext fun y => by
    show V c main_arg20 (((cfg2.win 2).blk t).view.emb y) = _
    refine congrArg (V c main_arg20) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hw4 : iblk2 V c 4 t = V c main_arg22 := funext fun y => by
    show V c main_arg22 (((cfg2.win 4).blk t).view.emb y) = _
    refine congrArg (V c main_arg22) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hb3 : iblk2 V c 3 t = V c main_v81 := funext fun y => by
    show V c main_v81 (((cfg2.win 3).blk t).view.emb y) = _
    refine congrArg (V c main_v81) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  show k2_pay1 (F := Ideal) (iblk2 V c 0 t) (iblk2 V c 1 t) (iblk2 V c 2 t) (iblk2 V c 4 t) (iblk2 V c 3 t) (ix2 p q) = G V c (((cfg2.win 5).blk t).view.emb (ix2 p q))
  rw [h9]
  refine (Body2.pay_apply _ _ _ _ _ p q).trans ?_
  show one (Ideal.ofBits .f32 0x00000000#32) (fun k => iblk2 V c 0 t (ix2 p k)) (fun k => iblk2 V c 1 t (ix2 p k)) (iblk2 V c 2 t) (iblk2 V c 4 t) (iblk2 V c 3 t (ix2 (0 : Fin 1) q)) q
      = one (Ideal.ofBits .f32 0x00000000#32) (fun k => V c main_v75 (ix2 r k)) (fun k => V c main_arg2 (ix2 r k)) (V c main_arg20) (V c main_arg22) (V c main_v81 (ix2 (0 : Fin 1) q)) q
  rw [hr0, hr1, hw2, hw4, hb3]

/-- An index of the array is in point `t`'s block iff each coordinate is in the block's range on its axis. -/
theorem mem_blk (t : Fin cfg2.N) (i : S10000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v82).slice (win2_5.rect t)).set ↔ _
  rw [View.set_slice_whole, Rect.mem_set_unit]
  exact Iff.rfl

/-- The 1 blocks of 10000 rows tile the array: row `n` is in block `n / 10000`. -/
theorem cover (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- The result array after the region is the layer of the operands as the region finds them. -/
theorem final (c : Dev nD) : (dat2 V c).arrAt 5 cfg2.N = G V c :=
  (dat2 V c).arrAt_eq_of_cover 5 (G V c) (fun t _ => flushed_eq V c t) cover

end Cert.KernelIdeal.Blocks2

end
-- ==== Proof.KernelLayer.lean ====
/-
  The idealized kernel's three results as layers of the arguments.

  Each result array keeps what its region left in it; a region leaves the layer of the operands it found; and the
  operands it found are arguments as launched, neighbourhood means of arguments, and bias vectors reshaped to one row.
  Together: each result is the layer, with the bias vectors read directly, of the arguments and their means.
-/
import proofs.«159447_j12275016532442_1_alg».proof.Proof.KernelWalk
import proofs.«159447_j12275016532442_1_alg».proof.Proof.Blocks0
import proofs.«159447_j12275016532442_1_alg».proof.Proof.Blocks1
import proofs.«159447_j12275016532442_1_alg».proof.Proof.Blocks2

set_option maxRecDepth 16384

noncomputable section

namespace Cert.KernelIdeal.Layer

open Idealize.ShloMosaic Idealize.ShloMosaic.TcCoe Idealize.SL.Sem
open Cert.KernelIdeal Cert.KernelIdeal.Gen Cert.Sage

variable (m : (ℓ : Loc nD τ sig) → Buf (Elt Ideal) ℓ) (ρ : Dev nD → PrngReg)

/-- The papers' result: the two-relation layer of the cites mean, the writes mean and the papers' own features. -/
theorem paper (c : Dev nD) : W6 m ρ c (Proc.devRef .tc main_v78)
    = layer2 (R := 500000) (Ideal.ofBits .f32 0x00000000#32)
        (Cert.ReferenceIdeal.Read.val_main_v18 (F := Ideal) (m ((c : Thread nD τ).loc main_arg0)) (m ((c : Thread nD τ).loc main_arg3)) (m ((c : Thread nD τ).loc main_arg4)))
        (Cert.ReferenceIdeal.Read.val_main_v43 (F := Ideal) (m ((c : Thread nD τ).loc main_arg1)) (m ((c : Thread nD τ).loc main_arg5)) (m ((c : Thread nD τ).loc main_arg6)))
        (m ((c : Thread nD τ).loc main_arg0)) (m ((c : Thread nD τ).loc main_arg11)) (m ((c : Thread nD τ).loc main_arg13)) (m ((c : Thread nD τ).loc main_arg14)) (m ((c : Thread nD τ).loc main_arg16)) (m ((c : Thread nD τ).loc main_arg12)) (m ((c : Thread nD τ).loc main_arg15)) := by
  rw [Walk.W6_v78, Blocks0.final (V1 m ρ) c]
  show layer2r (R := 500000) (Ideal.ofBits .f32 0x00000000#32) (W1 m ρ c (Proc.devRef .tc main_v18)) (W1 m ρ c (Proc.devRef .tc main_v37))
      (W1 m ρ c (Proc.devRef .tc main_arg0)) (W1 m ρ c (Proc.devRef .tc main_arg11)) (W1 m ρ c (Proc.devRef .tc main_arg13))
      (W1 m ρ c (Proc.devRef .tc main_arg14)) (W1 m ρ c (Proc.devRef .tc main_arg16))
      (W1 m ρ c (Proc.devRef .tc main_v76)) (W1 m ρ c (Proc.devRef .tc main_v77)) = _
  rw [Walk.W1_main_v18, Walk.W1_main_v37, Walk.W1_arg0, Walk.W1_arg11, Walk.W1_arg13, Walk.W1_arg14, Walk.W1_arg16,
    Walk.W1_main_v76, Walk.W1_main_v77]
  exact layer2r_reshape _ _ _ _ _ _ _ _ _ _ _

/-- The authors' result: the one-relation layer of the rev mean and the authors' own features. -/
theorem author (c : Dev nD) : W6 m ρ c (Proc.devRef .tc main_v80)
    = layer1 (R := 300000) (Ideal.ofBits .f32 0x00000000#32)
        (Cert.ReferenceIdeal.Read.val_main_v70 (F := Ideal) (m ((c : Thread nD τ).loc main_arg0)) (m ((c : Thread nD τ).loc main_arg7)) (m ((c : Thread nD τ).loc main_arg8)))
        (m ((c : Thread nD τ).loc main_arg1)) (m ((c : Thread nD τ).loc main_arg17)) (m ((c : Thread nD τ).loc main_arg19)) (m ((c : Thread nD τ).loc main_arg18)) := by
  rw [Walk.W6_v80, Blocks1.final (V3 m ρ) c]
  show layer1r (R := 300000) (Ideal.ofBits .f32 0x00000000#32) (W3 m ρ c (Proc.devRef .tc main_v56)) (W3 m ρ c (Proc.devRef .tc main_arg1))
      (W3 m ρ c (Proc.devRef .tc main_arg17)) (W3 m ρ c (Proc.devRef .tc main_arg19)) (W3 m ρ c (Proc.devRef .tc main_v79)) = _
  rw [Walk.W3_v56, Walk.W3_arg1, Walk.W3_arg17, Walk.W3_arg19, Walk.W3_v79]
  exact layer1r_reshape _ _ _ _ _ _ _

/-- The institutions' result: the one-relation layer of the aff mean and the institutions' own features. -/
theorem inst (c : Dev nD) : W6 m ρ c (Proc.devRef .tc main_v82)
    = layer1 (R := 10000) (Ideal.ofBits .f32 0x00000000#32)
        (Cert.ReferenceIdeal.Read.val_main_v96 (F := Ideal) (m ((c : Thread nD τ).loc main_arg1)) (m ((c : Thread nD τ).loc main_arg9)) (m ((c : Thread nD τ).loc main_arg10)))
        (m ((c : Thread nD τ).loc main_arg2)) (m ((c : Thread nD τ).loc main_arg20)) (m ((c : Thread nD τ).loc main_arg22)) (m ((c : Thread nD τ).loc main_arg21)) := by
  rw [Walk.W6_v82, Blocks2.final (V5 m ρ) c]
  show layer1r (R := 10000) (Ideal.ofBits .f32 0x00000000#32) (W5 m ρ c (Proc.devRef .tc main_v75)) (W5 m ρ c (Proc.devRef .tc main_arg2))
      (W5 m ρ c (Proc.devRef .tc main_arg20)) (W5 m ρ c (Proc.devRef .tc main_arg22)) (W5 m ρ c (Proc.devRef .tc main_v81)) = _
  rw [Walk.W5_v75, Walk.W5_arg2, Walk.W5_arg20, Walk.W5_arg22, Walk.W5_v81]
  exact layer1r_reshape _ _ _ _ _ _ _

end Cert.KernelIdeal.Layer

end
-- ==== Proof.RefValue.lean ====
/-
  The reference's three results, entry by entry.

  Each result is read one host operation at a time down to the neighbourhood means, which are left as the stages they
  are: a dot product is a sum over the contracted axis, a bias vector broadcast to a row and then along the rows reads
  its own entry at the column, and the final maximum is against the zero constant. What remains is the layer's entry
  with the bias added before the node's own term, which is the layer's entry in any order of addition.
-/
import proofs.«159447_j12275016532442_1_alg».proof.Proof.Gen.ReferenceIdeal.Read
import proofs.«159447_j12275016532442_1_alg».proof.Proof.Sage

noncomputable section

namespace Cert.ReferenceIdeal.RefValue

open Idealize.ShloMosaic Idealize.ShloMosaic.ValueIdx Cert.ReferenceIdeal Cert.ReferenceIdeal.Read Cert.Sage

/-- The papers' result: two relations (cites, writes) into the papers. -/
theorem paper (x0 : (⟨S500000x128, .f32⟩ : BufTy).Contents (Elt Ideal)) (x1 : (⟨S300000x128, .f32⟩ : BufTy).Contents (Elt Ideal))
    (x3 x4 x5 x6 : (⟨S2000000, .i32⟩ : BufTy).Contents (Elt Ideal)) (x11 : (⟨S128x128, .f32⟩ : BufTy).Contents (Elt Ideal))
    (x12 : (⟨S128, .f32⟩ : BufTy).Contents (Elt Ideal)) (x13 x14 : (⟨S128x128, .f32⟩ : BufTy).Contents (Elt Ideal))
    (x15 : (⟨S128, .f32⟩ : BufTy).Contents (Elt Ideal)) (x16 : (⟨S128x128, .f32⟩ : BufTy).Contents (Elt Ideal)) :
    val_main_v51 (F := Ideal) x0 x1 x3 x4 x5 x6 x11 x12 x13 x14 x15 x16
      = layer2 (Ideal.ofBits .f32 0x00000000#32) (val_main_v18 (F := Ideal) x0 x3 x4) (val_main_v43 (F := Ideal) x1 x5 x6) x0
          x11 x13 x14 x16 x12 x15 := by
  funext i
  obtain ⟨r, q, rfl⟩ : ∃ (r : Fin 500000) (q : Fin 128), i = ix2 r q := ⟨i 0, i 1, eq_ix2 i⟩
  have l19 (k : Fin 128) : lidx_main_v19 (ix2 r q) k = ix2 r k := funext fun a => Fin.ext (by
    match a with
    | ⟨0, _⟩ => rfl
    | ⟨1, _⟩ => rfl)
  have r19 (k : Fin 128) : ridx_main_v19 (ix2 r q) k = ix2 k q := funext fun a => Fin.ext (by
    match a with
    | ⟨0, _⟩ => rfl
    | ⟨1, _⟩ => rfl)
  have l23 (k : Fin 128) : lidx_main_v23 (ix2 r q) k = ix2 r k := funext fun a => Fin.ext (by
    match a with
    | ⟨0, _⟩ => rfl
    | ⟨1, _⟩ => rfl)
  have r23 (k : Fin 128) : ridx_main_v23 (ix2 r q) k = ix2 k q := funext fun a => Fin.ext (by
    match a with
    | ⟨0, _⟩ => rfl
    | ⟨1, _⟩ => rfl)
  have l44 (k : Fin 128) : lidx_main_v44 (ix2 r q) k = ix2 r k := funext fun a => Fin.ext (by
    match a with
    | ⟨0, _⟩ => rfl
    | ⟨1, _⟩ => rfl)
  have r44 (k : Fin 128) : ridx_main_v44 (ix2 r q) k = ix2 k q := funext fun a => Fin.ext (by
    match a with
    | ⟨0, _⟩ => rfl
    | ⟨1, _⟩ => rfl)
  have l48 (k : Fin 128) : lidx_main_v48 (ix2 r q) k = ix2 r k := funext fun a => Fin.ext (by
    match a with
    | ⟨0, _⟩ => rfl
    | ⟨1, _⟩ => rfl)
  have r48 (k : Fin 128) : ridx_main_v48 (ix2 r q) k = ix2 k q := funext fun a => Fin.ext (by
    match a with
    | ⟨0, _⟩ => rfl
    | ⟨1, _⟩ => rfl)
  have b1 : idx_main_v20 (idx_main_v21 (ix2 r q)) = ix1 q := funext fun a => Fin.ext (by
    match a with
    | ⟨0, _⟩ => rfl)
  have b2 : idx_main_v45 (idx_main_v46 (ix2 r q)) = ix1 q := funext fun a => Fin.ext (by
    match a with
    | ⟨0, _⟩ => rfl)
  rw [val_main_v51_apply, val_main_v50_apply, val_main_v24_apply, val_main_v22_apply, val_main_v19_apply,
    val_main_v21_apply, val_main_v20_apply, val_main_v23_apply, val_main_v49_apply, val_main_v47_apply,
    val_main_v44_apply, val_main_v46_apply, val_main_v45_apply, val_main_v48_apply, val_main_call0_v0_apply,
    val_main_call0_cst_apply]
  simp only [l19, r19, l23, r23, l44, r44, l48, r48, b1, b2]
  exact two_of_relations (Ideal.ofBits .f32 0x00000000#32) (fun k => val_main_v18 (F := Ideal) x0 x3 x4 (ix2 r k))
    (fun k => val_main_v43 (F := Ideal) x1 x5 x6 (ix2 r k)) (fun k => x0 (ix2 r k)) x11 x13 x14 x16 (x12 (ix1 q)) (x15 (ix1 q)) q

/-- The authors' result: one relation (rev) into the authors. -/
theorem author (x0 : (⟨S500000x128, .f32⟩ : BufTy).Contents (Elt Ideal)) (x1 : (⟨S300000x128, .f32⟩ : BufTy).Contents (Elt Ideal))
    (x7 x8 : (⟨S2000000, .i32⟩ : BufTy).Contents (Elt Ideal)) (x17 : (⟨S128x128, .f32⟩ : BufTy).Contents (Elt Ideal))
    (x18 : (⟨S128, .f32⟩ : BufTy).Contents (Elt Ideal)) (x19 : (⟨S128x128, .f32⟩ : BufTy).Contents (Elt Ideal)) :
    val_main_v77 (F := Ideal) x0 x1 x7 x8 x17 x18 x19
      = layer1 (Ideal.ofBits .f32 0x00000000#32) (val_main_v70 (F := Ideal) x0 x7 x8) x1 x17 x19 x18 := by
  funext i
  obtain ⟨r, q, rfl⟩ : ∃ (r : Fin 300000) (q : Fin 128), i = ix2 r q := ⟨i 0, i 1, eq_ix2 i⟩
  have l71 (k : Fin 128) : lidx_main_v71 (ix2 r q) k = ix2 r k := funext fun a => Fin.ext (by
    match a with
    | ⟨0, _⟩ => rfl
    | ⟨1, _⟩ => rfl)
  have r71 (k : Fin 128) : ridx_main_v71 (ix2 r q) k = ix2 k q := funext fun a => Fin.ext (by
    match a with
    | ⟨0, _⟩ => rfl
    | ⟨1, _⟩ => rfl)
  have l75 (k : Fin 128) : lidx_main_v75 (ix2 r q) k = ix2 r k := funext fun a => Fin.ext (by
    match a with
    | ⟨0, _⟩ => rfl
    | ⟨1, _⟩ => rfl)
  have r75 (k : Fin 128) : ridx_main_v75 (ix2 r q) k = ix2 k q := funext fun a => Fin.ext (by
    match a with
    | ⟨0, _⟩ => rfl
    | ⟨1, _⟩ => rfl)
  have b1 : idx_main_v72 (idx_main_v73 (ix2 r q)) = ix1 q := funext fun a => Fin.ext (by
    match a with
    | ⟨0, _⟩ => rfl)
  rw [val_main_v77_apply, val_main_v76_apply, val_main_v74_apply, val_main_v71_apply, val_main_v73_apply,
    val_main_v72_apply, val_main_v75_apply, val_main_call1_v0_apply, val_main_call1_cst_apply]
  simp only [l71, r71, l75, r75, b1]
  exact one_of_bias_first (Ideal.ofBits .f32 0x00000000#32) (fun k => val_main_v70 (F := Ideal) x0 x7 x8 (ix2 r k)) (fun k => x1 (ix2 r k))
    x17 x19 (x18 (ix1 q)) q

/-- The institutions' result: one relation (aff) into the institutions. -/
theorem inst (x1 : (⟨S300000x128, .f32⟩ : BufTy).Contents (Elt Ideal)) (x2 : (⟨S10000x128, .f32⟩ : BufTy).Contents (Elt Ideal))
    (x9 x10 : (⟨S500000, .i32⟩ : BufTy).Contents (Elt Ideal)) (x20 : (⟨S128x128, .f32⟩ : BufTy).Contents (Elt Ideal))
    (x21 : (⟨S128, .f32⟩ : BufTy).Contents (Elt Ideal)) (x22 : (⟨S128x128, .f32⟩ : BufTy).Contents (Elt Ideal)) :
    val_main_v103 (F := Ideal) x1 x2 x9 x10 x20 x21 x22
      = layer1 (Ideal.ofBits .f32 0x00000000#32) (val_main_v96 (F := Ideal) x1 x9 x10) x2 x20 x22 x21 := by
  funext i
  obtain ⟨r, q, rfl⟩ : ∃ (r : Fin 10000) (q : Fin 128), i = ix2 r q := ⟨i 0, i 1, eq_ix2 i⟩
  have l97 (k : Fin 128) : lidx_main_v97 (ix2 r q) k = ix2 r k := funext fun a => Fin.ext (by
    match a with
    | ⟨0, _⟩ => rfl
    | ⟨1, _⟩ => rfl)
  have r97 (k : Fin 128) : ridx_main_v97 (ix2 r q) k = ix2 k q := funext fun a => Fin.ext (by
    match a with
    | ⟨0, _⟩ => rfl
    | ⟨1, _⟩ => rfl)
  have l101 (k : Fin 128) : lidx_main_v101 (ix2 r q) k = ix2 r k := funext fun a => Fin.ext (by
    match a with
    | ⟨0, _⟩ => rfl
    | ⟨1, _⟩ => rfl)
  have r101 (k : Fin 128) : ridx_main_v101 (ix2 r q) k = ix2 k q := funext fun a => Fin.ext (by
    match a with
    | ⟨0, _⟩ => rfl
    | ⟨1, _⟩ => rfl)
  have b1 : idx_main_v98 (idx_main_v99 (ix2 r q)) = ix1 q := funext fun a => Fin.ext (by
    match a with
    | ⟨0, _⟩ => rfl)
  rw [val_main_v103_apply, val_main_v102_apply, val_main_v100_apply, val_main_v97_apply, val_main_v99_apply,
    val_main_v98_apply, val_main_v101_apply, val_main_call2_v0_apply, val_main_call2_cst_apply]
  simp only [l97, r97, l101, r101, b1]
  exact one_of_bias_first (Ideal.ofBits .f32 0x00000000#32) (fun k => val_main_v96 (F := Ideal) x1 x9 x10 (ix2 r k)) (fun k => x2 (ix2 r k))
    x20 x22 (x21 (ix1 q)) q

end Cert.ReferenceIdeal.RefValue

end
-- ==== Proof.lean ====
/-
  The proof of `Cert.Claim` for a heterogeneous mean-aggregating graph layer: three node types (papers, authors,
  institutions), four relations, one dense epilogue per node type.

  Both programs build the same four neighbourhood means with the same host operations. The kernel then runs three
  pipelined epilogues — per row block, the products of the means and of the nodes' own features with the weight
  matrices, the biases, a clamp at zero —, and the reference computes the same layers with whole dot products. Over
  the extended reals both end at the same layer of the arguments and their means, entry by entry; the only difference
  is the order in which the same terms are added, which does not matter there.

  The three frames are the programs' runs with the results dropped; the idealization rewrote nothing, so the kernel's
  idealization claim is trivial; the value claim is the two runs posted at the same layers.
-/
import proofs.«159447_j12275016532442_1_alg».proof.Defs
import proofs.«159447_j12275016532442_1_alg».proof.Proof.Gen.Kernel
import proofs.«159447_j12275016532442_1_alg».proof.Proof.Gen.Kernel.Frame
import proofs.«159447_j12275016532442_1_alg».proof.Proof.Gen.KernelIdeal
import proofs.«159447_j12275016532442_1_alg».proof.Proof.Gen.KernelIdeal.Frame
import proofs.«159447_j12275016532442_1_alg».proof.Proof.Gen.ReferenceIdeal
import proofs.«159447_j12275016532442_1_alg».proof.Proof.Gen.ReferenceIdeal.Run
import proofs.«159447_j12275016532442_1_alg».proof.Proof.Gen.ReferenceIdeal.Read
import proofs.«159447_j12275016532442_1_alg».proof.Proof.Gen.Pre_finite_inputs
import proofs.«159447_j12275016532442_1_alg».proof.Proof.KernelRun
import proofs.«159447_j12275016532442_1_alg».proof.Proof.KernelLayer
import proofs.«159447_j12275016532442_1_alg».proof.Proof.RefValue
import Idealize.ShloMosaic.Adequacy
import Idealize.ShloMosaic.Init

set_option maxRecDepth 16384

noncomputable section

namespace Cert.Proof

open Idealize.ShloMosaic Idealize.SL.Sem Cert.Sage

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization pass rewrote nothing. -/
theorem preserves : Cert.preserves_Kernel_KernelIdeal := trivial

/-- Both runs end, on every core, with the three results at the same layers of the arguments: the kernel's by its
    regions' blocks and the walk through the segment boundaries, the reference's by reading its operations entry by
    entry; the arguments of the two memories agree, so the layers are the same arrays. -/
theorem algebraic : Cert.algebraic_KernelIdeal_ReferenceIdeal := by
  intro m ρ m' ρ' _ hagree
  refine ⟨
    fun c => layer2 (R := 500000) (Ideal.ofBits .f32 0x00000000#32)
      (Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.ReferenceIdeal.Read.val_main_v43 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg11)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg16)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)),
    fun c => layer1 (R := 300000) (Ideal.ofBits .f32 0x00000000#32)
      (Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg17)) (m ((c.tc : Thread Cert.KernelIdeal.nD Cert.KernelIdeal.τ).loc Cert.KernelIdeal.main_arg19)) (m ((c.tc : Thread Cert.KernelIdeal.nD Cert.KernelIdeal.τ).loc Cert.KernelIdeal.main_arg18)),
    fun c => layer1 (R := 10000) (Ideal.ofBits .f32 0x00000000#32)
      (Cert.ReferenceIdeal.Read.val_main_v96 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg20)) (m ((c.tc : Thread Cert.KernelIdeal.nD Cert.KernelIdeal.τ).loc Cert.KernelIdeal.main_arg22)) (m ((c.tc : Thread Cert.KernelIdeal.nD Cert.KernelIdeal.τ).loc Cert.KernelIdeal.main_arg21)),
    ?_, ?_⟩
  · exact (θ_run Cert.KernelIdeal.defs _ _).mono (fun r h c =>
      ⟨(h c).1.trans (Cert.KernelIdeal.Layer.paper m ρ c),
       (h c).2.1.trans (Cert.KernelIdeal.Layer.author m ρ c),
       (h c).2.2.1.trans (Cert.KernelIdeal.Layer.inst m ρ c),
       (h c).2.2.2⟩) (Cert.KernelIdeal.Results.run_results m ρ)
  · refine (θ_run Cert.ReferenceIdeal.defs _ _).mono (fun r h c => ?_) (Cert.ReferenceIdeal.Value.run (F := Ideal) m' ρ')
    obtain ⟨a0, a1, a2, a3, a4, a5, a6, a7, a8, a9, a10, a11, a12, a13, a14, a15, a16, a17, a18, a19, a20, a21, a22⟩ := hagree c
    refine ⟨?_, ?_, ?_, (h c).2.2.2⟩
    · rw [(h c).1, Cert.ReferenceIdeal.Read.val_main_v51_eq, Cert.ReferenceIdeal.RefValue.paper,
        a0, a1, a3, a4, a5, a6, a11, a12, a13, a14, a15, a16]
    · rw [(h c).2.1, Cert.ReferenceIdeal.Read.val_main_v77_eq, Cert.ReferenceIdeal.RefValue.author,
        a0, a1, a7, a8, a17, a18, a19]
    · rw [(h c).2.2.1, Cert.ReferenceIdeal.Read.val_main_v103_eq, Cert.ReferenceIdeal.RefValue.inst,
        a1, a2, a9, a10, a20, a21, a22]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
